-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x3200000 : Shape := ⟨2, ![2, 3200000]⟩
abbrev S16x32 : Shape := ⟨2, ![16, 32]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x16 .f32) (main_arg6 : FVec F S1x16 .f32) (main_arg7 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S1x16 .f32 := Host.absf main_arg5
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S1x16 .f32 := Host.absf main_arg6
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x32 .f32) (main_arg1 : IVec S2x3200000 32) (main_arg2 : FVec F S16x32 .f32) (main_arg3 : FVec F S16x32 .f32) (main_arg4 : FVec F S16 .f32) (main_arg5 : FVec F S1x16 .f32) (main_arg6 : FVec F S1x16 .f32) (main_arg7 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S16x32 .f32 := Host.absf main_arg3
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_v13 main_v16
-- ==== Kernel.lean ====
abbrev S100000x32 : Shape := ⟨2, ![100000, 32]⟩
abbrev S2x3200000 : Shape := ⟨2, ![2, 3200000]⟩
abbrev S16x32 : Shape := ⟨2, ![16, 32]⟩
abbrev S16 : Shape := ⟨1, ![16]⟩
abbrev S1x16 : Shape := ⟨2, ![1, 16]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S32x16 : Shape := ⟨2, ![32, 16]⟩
abbrev S16x1 : Shape := ⟨2, ![16, 1]⟩
abbrev S1x1 : Shape := ⟨2, ![1, 1]⟩
abbrev S10000x32 : Shape := ⟨2, ![10000, 32]⟩
abbrev S10000x16 : Shape := ⟨2, ![10000, 16]⟩
abbrev S100000x16 : Shape := ⟨2, ![100000, 16]⟩
abbrev S3200000x16 : Shape := ⟨2, ![3200000, 16]⟩
abbrev S100000x2 : Shape := ⟨2, ![100000, 2]⟩
abbrev S10000x1 : Shape := ⟨2, ![10000, 1]⟩
abbrev S10000x2 : Shape := ⟨2, ![10000, 2]⟩

abbrev nBuf : Space → Nat
  | .hbm => 67
  | .vmem => 22
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S16x32, .f32⟩
  | .hbm, ⟨3, _⟩ => ⟨S16x32, .f32⟩
  | .hbm, ⟨4, _⟩ => ⟨S16, .f32⟩
  | .hbm, ⟨5, _⟩ => ⟨S1x16, .f32⟩
  | .hbm, ⟨6, _⟩ => ⟨S1x16, .f32⟩
  | .hbm, ⟨7, _⟩ => ⟨S1, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S32x16, .f32⟩
  | .hbm, ⟨26, _⟩ => ⟨S32x16, .f32⟩
  | .hbm, ⟨27, _⟩ => ⟨S16x1, .f32⟩
  | .hbm, ⟨28, _⟩ => ⟨S16x1, .f32⟩
  | .hbm, ⟨29, _⟩ => ⟨S1x16, .f32⟩
  | .hbm, ⟨30, _⟩ => ⟨S1x1, .f32⟩
  | .hbm, ⟨31, _⟩ => ⟨S100000x32, .f32⟩
  | .hbm, ⟨32, _⟩ => ⟨S100000x16, .f32⟩
  | .hbm, ⟨33, _⟩ => ⟨S100000x16, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000x16, .f32⟩
  | .hbm, ⟨43, _⟩ => ⟨S_, .f32⟩
  | .hbm, ⟨44, _⟩ => ⟨S100000x16, .f32⟩
  | .hbm, ⟨45, _⟩ => ⟨S3200000x1, .i32⟩
  | .hbm, ⟨46, _⟩ => ⟨S100000x16, .f32⟩
  | .hbm, ⟨47, _⟩ => ⟨S100000x32, .f32⟩
  | .hbm, ⟨48, _⟩ => ⟨S100000x2, .f32⟩
  | .hbm, ⟨49, _⟩ => ⟨S100000x1, .f32⟩
  | .hbm, ⟨50, _⟩ => ⟨S100000x1, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000x1, .f32⟩
  | .hbm, ⟨60, _⟩ => ⟨S_, .f32⟩
  | .hbm, ⟨61, _⟩ => ⟨S100000x1, .f32⟩
  | .hbm, ⟨62, _⟩ => ⟨S3200000x1, .i32⟩
  | .hbm, ⟨63, _⟩ => ⟨S100000x1, .f32⟩
  | .hbm, ⟨64, _⟩ => ⟨S100000x2, .f32⟩
  | .hbm, ⟨65, _⟩ => ⟨S100000x1, .f32⟩
  | .hbm, ⟨66, _⟩ => ⟨S100000, .f32⟩
  | .local _ .vmem, ⟨0, _⟩ => ⟨S10000x32, .f32⟩
  | .local _ .vmem, ⟨1, _⟩ => ⟨S10000x32, .f32⟩
  | .local _ .vmem, ⟨2, _⟩ => ⟨S32x16, .f32⟩
  | .local _ .vmem, ⟨3, _⟩ => ⟨S32x16, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S10000x1, .f32⟩
  | .local _ .vmem, ⟨9, _⟩ => ⟨S10000x1, .f32⟩
  | .local _ .vmem, ⟨10, _⟩ => ⟨S1x16, .f32⟩
  | .local _ .vmem, ⟨11, _⟩ => ⟨S16x1, .f32⟩
  | .local _ .vmem, ⟨12, _⟩ => ⟨S16x1, .f32⟩
  | .local _ .vmem, ⟨13, _⟩ => ⟨S10000x2, .f32⟩
  | .local _ .vmem, ⟨14, _⟩ => ⟨S10000x2, .f32⟩
  | .local _ .vmem, ⟨15, _⟩ => ⟨S10000x2, .f32⟩
  | .local _ .vmem, ⟨16, _⟩ => ⟨S10000x2, .f32⟩
  | .local _ .vmem, ⟨17, _⟩ => ⟨S10000x1, .f32⟩
  | .local _ .vmem, ⟨18, _⟩ => ⟨S10000x1, .f32⟩
  | .local _ .vmem, ⟨19, _⟩ => ⟨S1x1, .f32⟩
  | .local _ .vmem, ⟨20, _⟩ => ⟨S10000x1, .f32⟩
  | .local _ .vmem, ⟨21, _⟩ => ⟨S10000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  transposes_S16x32_S32x16_1_0 : S16x32.Transposes [1, 0] S32x16
  transposes_S1x16_S16x1_1_0 : S1x16.Transposes [1, 0] S16x1
  shapeCasts_S16_S1x16 : S16.ShapeCasts S1x16
  shapeCasts_S1_S1x1 : S1.ShapeCasts S1x1
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  concatenates_S10000x16_S10000x16_S10000x32_d1 : Shape.Concatenates [S10000x16, S10000x16] S10000x32 1
  slices_S100000x32_S100000x16_0_0 : S100000x32.Slices ![0, 0] S100000x16
  slices_S100000x32_S100000x16_0_16 : S100000x32.Slices ![0, 16] S100000x16
  bcast_S_S100000x16 : S_.BroadcastsInDim S100000x16 (![] : Fin 0 → Fin S100000x16.rank)
  concatenates_S100000x16_S100000x16_S100000x32_d1 : Shape.Concatenates [S100000x16, S100000x16] S100000x32 1
  shapeCasts_S10000x32_S10000x32 : S10000x32.ShapeCasts S10000x32
  slices_S10000x32_o0_0_S10000x16 : S10000x32.Slices ![0, 0] S10000x16
  slices_S10000x32_o0_16_S10000x16 : S10000x32.Slices ![0, 16] S10000x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S10000x1_S10000x16 : S10000x1.Broadcasts S10000x16
  broadcasts_S1x16_S10000x16 : S1x16.Broadcasts S10000x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  concatenates_S10000x1_S10000x1_S10000x2_d1 : Shape.Concatenates [S10000x1, S10000x1] S10000x2 1
  inb_S10000x2_S10000x2_0_0 : ∀ a, (![0, 0] : Fin 2 → Nat) a + S10000x2.size a ≤ S10000x2.size a
  h_S10000x2 : 0 < S10000x2.numel
  slices_S100000x2_S100000x1_0_0 : S100000x2.Slices ![0, 0] S100000x1
  slices_S100000x2_S100000x1_0_1 : S100000x2.Slices ![0, 1] S100000x1
  bcast_S_S100000x1 : S_.BroadcastsInDim S100000x1 (![] : Fin 0 → Fin S100000x1.rank)
  concatenates_S100000x1_S100000x1_S100000x2_d1 : Shape.Concatenates [S100000x1, S100000x1] S100000x2 1
  shapeCasts_S10000x2_S10000x2 : S10000x2.ShapeCasts S10000x2
  slices_S10000x2_o0_0_S10000x1 : S10000x2.Slices ![0, 0] S10000x1
  slices_S10000x2_o0_1_S10000x1 : S10000x2.Slices ![0, 1] S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  shapeCasts_S100000x1_S100000 : S100000x1.ShapeCasts S100000
  scatter_S100000_S3200000x1_S3200000_n_0_0_1_wf : ScatterDims.WF S100000 S3200000x1 S3200000 [] [0] [0] 1
  dot_S10000x32_S32x16_S10000x16_1_0_0_1_n_n_wf : DotDims.WF S10000x32 S32x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x1_S10000x1_1_0_0_1_n_n_wf : DotDims.WF S10000x16 S16x1 S10000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x16.size a ≤ S32x16.size a
  hwx0_1 : ∀ i : grid0.Coords, EltTy.bits .f32 = 32 ∨ (Rect.block (s := S32x16) S32x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x16.size a ≤ S32x16.size a
  hwx0_2 : ∀ i : grid0.Coords, EltTy.bits .f32 = 32 ∨ (Rect.block (s := S32x16) S32x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x1.size a ≤ S16x1.size a
  hwx1_3 : ∀ i : grid1.Coords, EltTy.bits .f32 = 32 ∨ (Rect.block (s := S16x1) S16x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x1.size a ≤ S16x1.size a
  hwx1_4 : ∀ i : grid1.Coords, EltTy.bits .f32 = 32 ∨ (Rect.block (s := S16x1) S16x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x2.size a ≤ S100000x2.size a
  hwx1_5 : ∀ i : grid1.Coords, EltTy.bits .f32 = 32 ∨ (Rect.block (s := S100000x2) S10000x2.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x2.size a ≤ S100000x2.size a
  hwx2_0 : ∀ i : grid2.Coords, EltTy.bits .f32 = 32 ∨ (Rect.block (s := S100000x2) S10000x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .f32 = 32 ∨ (Rect.block (s := S100000x1) S10000x1.size (cc2_transform_3 i) (hinb2_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S32x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S32x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S16x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S16x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S10000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S10000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S10000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x3200000 : Shape := ⟨2, ![2, 3200000]⟩
abbrev S16x32 : Shape := ⟨2, ![16, 32]⟩
abbrev S16 : Shape := ⟨1, ![16]⟩
abbrev S1x16 : Shape := ⟨2, ![1, 16]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x32 : Shape := ⟨2, ![3200000, 32]⟩
abbrev S100000x1 : Shape := ⟨2, ![100000, 1]⟩
abbrev S32x16 : Shape := ⟨2, ![32, 16]⟩
abbrev S100000x16 : Shape := ⟨2, ![100000, 16]⟩
abbrev S3200000x16 : Shape := ⟨2, ![3200000, 16]⟩
abbrev S16x1 : Shape := ⟨2, ![16, 1]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S16x32, .f32⟩
  | .hbm, ⟨3, _⟩ => ⟨S16x32, .f32⟩
  | .hbm, ⟨4, _⟩ => ⟨S16, .f32⟩
  | .hbm, ⟨5, _⟩ => ⟨S1x16, .f32⟩
  | .hbm, ⟨6, _⟩ => ⟨S1x16, .f32⟩
  | .hbm, ⟨7, _⟩ => ⟨S1, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000x32, .f32⟩
  | .hbm, ⟨33, _⟩ => ⟨S_, .f32⟩
  | .hbm, ⟨34, _⟩ => ⟨S100000x32, .f32⟩
  | .hbm, ⟨35, _⟩ => ⟨S3200000x1, .i32⟩
  | .hbm, ⟨36, _⟩ => ⟨S100000x32, .f32⟩
  | .hbm, ⟨37, _⟩ => ⟨S100000x1, .f32⟩
  | .hbm, ⟨38, _⟩ => ⟨S100000x32, .f32⟩
  | .hbm, ⟨39, _⟩ => ⟨S100000x32, .f32⟩
  | .hbm, ⟨40, _⟩ => ⟨S32x16, .f32⟩
  | .hbm, ⟨41, _⟩ => ⟨S100000x16, .f32⟩
  | .hbm, ⟨42, _⟩ => ⟨S1x16, .f32⟩
  | .hbm, ⟨43, _⟩ => ⟨S100000x16, .f32⟩
  | .hbm, ⟨44, _⟩ => ⟨S100000x16, .f32⟩
  | .hbm, ⟨45, _⟩ => ⟨S32x16, .f32⟩
  | .hbm, ⟨46, _⟩ => ⟨S100000x16, .f32⟩
  | .hbm, ⟨47, _⟩ => ⟨S100000x16, .f32⟩
  | .hbm, ⟨48, _⟩ => ⟨S_, .f32⟩
  | .hbm, ⟨49, _⟩ => ⟨S100000x16, .f32⟩
  | .hbm, ⟨50, _⟩ => ⟨S100000x16, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000x16, .f32⟩
  | .hbm, ⟨60, _⟩ => ⟨S_, .f32⟩
  | .hbm, ⟨61, _⟩ => ⟨S100000x16, .f32⟩
  | .hbm, ⟨62, _⟩ => ⟨S3200000x1, .i32⟩
  | .hbm, ⟨63, _⟩ => ⟨S100000x16, .f32⟩
  | .hbm, ⟨64, _⟩ => ⟨S100000x1, .f32⟩
  | .hbm, ⟨65, _⟩ => ⟨S100000x16, .f32⟩
  | .hbm, ⟨66, _⟩ => ⟨S100000x16, .f32⟩
  | .hbm, ⟨67, _⟩ => ⟨S16x1, .f32⟩
  | .hbm, ⟨68, _⟩ => ⟨S100000x1, .f32⟩
  | .hbm, ⟨69, _⟩ => ⟨S1x1, .f32⟩
  | .hbm, ⟨70, _⟩ => ⟨S100000x1, .f32⟩
  | .hbm, ⟨71, _⟩ => ⟨S100000x1, .f32⟩
  | .hbm, ⟨72, _⟩ => ⟨S16x1, .f32⟩
  | .hbm, ⟨73, _⟩ => ⟨S100000x1, .f32⟩
  | .hbm, ⟨74, _⟩ => ⟨S100000x1, .f32⟩
  | .hbm, ⟨75, _⟩ => ⟨S100000, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  transposes_S16x32_S32x16_1_0 : S16x32.Transposes [1, 0] S32x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  transposes_S1x16_S16x1_1_0 : S1x16.Transposes [1, 0] S16x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3200000x1_S3200000_n_0_0_1_wf : ScatterDims.WF S100000 S3200000x1 S3200000 [] [0] [0] 1
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x1_S100000x1_1_0_0_1_n_n_wf : DotDims.WF S100000x16 S16x1 S100000x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.KernelRun.lean ====
/-
  The program's run with its result named.

  @main is seven segments: four stretches of host operations and three pipelined regions between them. The
  contents of every buffer at each segment boundary are a fold from the launch memory: a stretch leaves its
  operations' results, a region leaves in each of its arrays what its write-backs leave and every other buffer
  as it was. Every weakly fair execution ends with every unscoped buffer at the last boundary's contents; the
  arguments walk back through the fold to the launch memory, and the result buffer is read at the last
  boundary's contents as they stand — which the next module evaluates.
-/
import proofs.«119981_j14920716386718_2_alg».proof.Proof.Gen.KernelIdeal.Frame

set_option maxRecDepth 16384

noncomputable section

namespace Cert.Sage.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last
    boundary's contents and the argument arrays as launched. -/
theorem run_value : θ_run defs (onTc (τ := τ) (main (F := F))) ⟨m, fun _ => 0, ρ⟩ (fun r => ∀ c : Dev nD,
      r.2.mem ((c.tc : Thread nD τ).loc main_v48) = W7 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v48 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.Sage.Run

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.RegionPre.lean ====
/-
  The first region: [x·Wl | x·Wr], rows in blocks of 10000.

  The region reads the feature matrix in ten blocks of 10000 rows and the two 32×16 weight matrices whole, and
  writes, per block, the two products laid side by side: column q < 16 of the result is column q of x·Wl, column
  16 + q is column q of x·Wr. A product's row depends on that row of x only, so every block written back is the
  block of ONE whole-array function, and the ten blocks cover the 100000 rows.
-/
import proofs.«119981_j14920716386718_2_alg».proof.Proof.Gen.KernelIdeal.Frame
import proofs.«119981_j14920716386718_2_alg».proof.Proof.LibDense
import Idealize.ShloMosaic.Lib.ValueLayout
import Idealize.ShloMosaic.Lib.Pipeline.Value

set_option maxRecDepth 16384

noncomputable section

namespace Cert.Sage.Pre

open Cert.Dense Cert.KernelIdeal Cert.KernelIdeal.Gen Idealize.ShloMosaic Idealize.ShloMosaic.TcCoe
open Idealize.ShloMosaic.ValueIdx Idealize.SL.Sem
open Idealize.ShloMosaic.Pipeline (Dat Cfg Window)

/-- A column of the 32-column result as a column of one of the two 16-column products. -/
def col16 (q : Fin 32) : Fin 16 := ⟨q.val % 16, Nat.mod_lt _ (by decide)⟩

/-- The two products side by side. -/
def preFn {M : ℕ} (X : Mat M 32) (A B : Mat 32 16) : Mat M 32 :=
  fun i => if (i 1).val < 16 then mm X A (ix2 (i 0) (col16 (i 1))) else mm X B (ix2 (i 0) (col16 (i 1)))

/-- Its left half is the first product. -/
theorem preFn_left {M : ℕ} (X : Mat M 32) (A B : Mat 32 16) (p : Fin M) (c : Fin 16) (q : Fin 32) (hq : q.val = c.val) :
    preFn X A B (ix2 p q) = mm X A (ix2 p c) := by
  have hc := c.isLt
  show (if q.val < 16 then mm X A (ix2 p (col16 q)) else mm X B (ix2 p (col16 q))) = _
  rw [if_pos (by omega), show col16 q = c from Fin.ext (by show q.val % 16 = c.val; omega)]

/-- Its right half is the second product. -/
theorem preFn_right {M : ℕ} (X : Mat M 32) (A B : Mat 32 16) (p : Fin M) (c : Fin 16) (q : Fin 32) (hq : q.val = 16 + c.val) :
    preFn X A B (ix2 p q) = mm X B (ix2 p c) := by
  have hc := c.isLt
  show (if q.val < 16 then mm X A (ix2 p (col16 q)) else mm X B (ix2 p (col16 q))) = _
  rw [if_neg (by omega), show col16 q = c from Fin.ext (by show q.val % 16 = c.val; omega)]

/-- The body's arithmetic on a block is that function of the block (a change of float format is the identity on
    the extended reals, a product into a zero accumulator is the product). -/
theorem pay_eq (x0 : Vec Ideal S10000x32 .f32) (x1 x2 : Vec Ideal S32x16 .f32) :
    k0_pay1 (F := Ideal) x0 x1 x2 = preFn x0 x1 x2 := by
  funext y
  obtain ⟨p, q, rfl⟩ : ∃ (p : Fin 10000) (q : Fin 32), y = ix2 p q := ⟨y 0, y 1, eq_ix2 y⟩
  have hq := q.isLt
  unfold k0_pay1
  simp only [shapeCast_self]
  have e1 : matmul dot_S10000x32_S32x16_S10000x16_1_0_0_1_n_n none (truncf .bf16 x0 bitsLt_bf16_f32)
      (truncf .bf16 x1 bitsLt_bf16_f32) (constant (F := Ideal) S10000x16 .f32 0x00000000#32) = mm x0 x1 :=
    matmul_plain_zero none x0 x1
  have e2 : matmul dot_S10000x32_S32x16_S10000x16_1_0_0_1_n_n none (truncf .bf16 x0 bitsLt_bf16_f32)
      (truncf .bf16 x2 bitsLt_bf16_f32) (constant (F := Ideal) S10000x16 .f32 0x00000000#32) = mm x0 x2 :=
    matmul_plain_zero none x0 x2
  by_cases h : q.val < 16
  · rw [preFn_left x0 x1 x2 p ⟨q.val, h⟩ q rfl]
    refine (concatenate_pair_apply_left (s₁ := S10000x16) (s₂ := S10000x16) (1 : Fin 2) _ _ _ (ix2 p q) rfl (ix2 p ⟨q.val, h⟩)
      (fun b => by match b with | ⟨0, _⟩ => rfl | ⟨1, _⟩ => rfl)).trans ?_
    exact congrFun e1 _
  · rw [preFn_right x0 x1 x2 p ⟨q.val - 16, by omega⟩ q (by show q.val = 16 + (q.val - 16); omega)]
    refine (concatenate_pair_apply_right (s₁ := S10000x16) (s₂ := S10000x16) (1 : Fin 2) _ _ _ (ix2 p q) rfl rfl (ix2 p ⟨q.val - 16, by omega⟩)
      (fun b hb => by match b with | ⟨0, _⟩ => rfl | ⟨1, _⟩ => exact absurd rfl hb)
      (by show q.val - 16 + 16 = q.val; omega)).trans ?_
    exact congrFun e2 _

/-- On a block of consecutive rows the function reads the whole arrays at those rows. -/
theorem pre_block (x0 : Vec Ideal S10000x32 .f32) (x1 x2 : Vec Ideal S32x16 .f32)
    (A0 : Mat 100000 32) (A1 A2 : Mat 32 16) (y : S10000x32.Idx) (i : S100000x32.Idx)
    (h0 : ∀ k : Fin 32, x0 (ix2 (y 0) k) = A0 (ix2 (i 0) k)) (h1 : ∀ (k : Fin 32) (c : Fin 16), x1 (ix2 k c) = A1 (ix2 k c))
    (h2 : ∀ (k : Fin 32) (c : Fin 16), x2 (ix2 k c) = A2 (ix2 k c)) (hq : (y 1 : Fin 32) = (i 1 : Fin 32)) :
    k0_pay1 (F := Ideal) x0 x1 x2 y = preFn A0 A1 A2 i := by
  rw [pay_eq]
  show (if (y 1 : Fin 32).val < 16 then mm x0 x1 (ix2 (y 0) (col16 (y 1))) else mm x0 x2 (ix2 (y 0) (col16 (y 1))))
    = (if (i 1 : Fin 32).val < 16 then mm A0 A1 (ix2 (i 0) (col16 (i 1))) else mm A0 A2 (ix2 (i 0) (col16 (i 1))))
  rw [hq]
  split
  · exact Finset.sum_congr rfl fun k _ => by
      show x0 (ix2 (y 0) k) * x1 (ix2 k (col16 (i 1))) = A0 (ix2 (i 0) k) * A1 (ix2 k (col16 (i 1)))
      rw [h0, h1]
  · exact Finset.sum_congr rfl fun k _ => by
      show x0 (ix2 (y 0) k) * x2 (ix2 k (col16 (i 1))) = A0 (ix2 (i 0) k) * A2 (ix2 k (col16 (i 1)))
      rw [h0, h2]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the features move with the output, the weights stay. -/
theorem idx_facts : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every block of rows is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- What point t writes back is block t of the whole-array function of the arrays as the region finds them. -/
theorem flushed_eq (c : Dev nD) (t : Fin cfg0.N) :
    (dat0 V c).flushed 3 t = ((cfg0.win 3).blk t).view.read (Elt Ideal)
      (preFn (V c main_arg0) (V c main_v13) (V c main_v14)) := by
  show (cfg0.win 3).cut (grid0.coords t) ((dat0 V c).after 3 t) = _
  rw [after0_3]
  unfold out0_3
  rw [View.canon_unit_zero hz]
  simp only [View.ld_unit_zero (S := S10000x32) hz, View.ld_unit_zero (S := S32x16) hz]
  obtain ⟨e0, e1, e2, e3, e4, e5, e6, e7⟩ := idx_facts t
  funext j
  refine pre_block _ _ _ _ _ _ j _ (fun k => ?_) (fun k q => ?_) (fun k q => ?_) ?_
  · show V c main_arg0 (((cfg0.win 0).blk t).view.emb (ix2 (j 0) k)) = V c main_arg0 (ix2 ((((cfg0.win 3).blk t).view.emb j) 0) k)
    refine congrArg _ (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 32 + 1 * k.val = k.val; omega
  · show V c main_v13 (((cfg0.win 1).blk t).view.emb (ix2 k q)) = V c main_v13 (ix2 k q)
    refine congrArg _ (funext fun a => Fin.ext ?_)
    match a with
    | ⟨0, _⟩ => show win0_1.index t (0 : Fin 2) * 32 + 1 * k.val = k.val; omega
    | ⟨1, _⟩ => show win0_1.index t (1 : Fin 2) * 16 + 1 * q.val = q.val; omega
  · show V c main_v14 (((cfg0.win 2).blk t).view.emb (ix2 k q)) = V c main_v14 (ix2 k q)
    refine congrArg _ (funext fun a => Fin.ext ?_)
    match a with
    | ⟨0, _⟩ => show win0_2.index t (0 : Fin 2) * 32 + 1 * k.val = k.val; omega
    | ⟨1, _⟩ => show win0_2.index t (1 : Fin 2) * 16 + 1 * q.val = q.val; omega
  · refine Fin.ext ?_
    show (j 1).val = win0_3.index t (1 : Fin 2) * 32 + 1 * (j 1).val
    omega

/-- An index of the output array is in point t's block iff its row is in the block's range. -/
theorem mem_blk (t : Fin cfg0.N) (i : S100000x32.Idx) :
    i ∈ ((cfg0.win 3).blk t).view.set ↔ ∀ a : Fin 2, win0_3.index t a * S10000x32.size a ≤ (i a).val
      ∧ (i a).val < win0_3.index t a * S10000x32.size a + S10000x32.size a := by
  show i ∈ ((View.whole main_v19).slice (win0_3.rect t)).set ↔ _
  rw [View.set_slice_whole, Rect.mem_set_unit]
  exact Iff.rfl

/-- The ten blocks cover the array. -/
theorem cover (i : S100000x32.Idx) : ∃ t : Fin cfg0.N, (cfg0.win 3).flush t = true ∧ i ∈ ((cfg0.win 3).blk t).view.set := by
  have hi0 : (i 0).val < 100000 := (i 0).isLt
  have hi1 : (i 1).val < 32 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 32 ≤ (i 1).val ∧ (i 1).val < win0_3.index t (1 : Fin 2) * 32 + 32; omega

/-- THE ARRAY AFTER THE REGION: the whole-array function of the arrays as the region finds them. -/
theorem arr (c : Dev nD) :
    (dat0 V c).arrAt 3 cfg0.N = preFn (V c main_arg0) (V c main_v13) (V c main_v14) :=
  (dat0 V c).arrAt_eq_of_cover 3 _ (fun t _ => flushed_eq V c t) cover

end Cert.Sage.Pre

end
-- ==== Proof.LibMatAssoc.lean ====
/-
  Matrices of real entries on the extended reals.

  A row of a matrix product depends on the left factor through that one row only. The product of three matrices
  whose entries are all real (neither infinity) is associative: on the extended reals that takes distributivity of
  the product over a finite sum, which fails at the infinities, so the sums are computed in the reals and carried
  back through the embedding, which commutes with finite sums and with products.
-/
import proofs.«119981_j14920716386718_2_alg».proof.Proof.LibDense

noncomputable section

open scoped BigOperators

namespace Cert.Gcn

open Cert.Dense Idealize.ShloMosaic Idealize.ShloMosaic.ValueIdx

variable {M K L N : ℕ}

/-- Every entry is a real number (neither infinity). -/
def Finite {s : Shape} (X : s.Idx → EReal) : Prop := ∀ i, ∃ r : ℝ, X i = (r : EReal)

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `p` of `blk · W` is row `r` of `A · W` when row `p` of `blk` is row `r` of `A`. -/
theorem mm_row {M' : ℕ} (A : Mat M' K) (blk : Mat M K) (W : Mat K N) (p : Fin M) (r : Fin M')
    (h : ∀ k, blk (ix2 p k) = A (ix2 r k)) (q : Fin N) : mm blk W (ix2 p q) = mm A W (ix2 r q) := by
  show ∑ k : Fin K, blk (ix2 p k) * W (ix2 k q) = ∑ k : Fin K, A (ix2 r k) * W (ix2 k q)
  exact Finset.sum_congr rfl fun k _ => by rw [h k]

/-- Associativity of a triple product of real numbers summed over two finite axes. -/
theorem real_assoc (a : Fin K → ℝ) (x : Fin K → Fin L → ℝ) (w : Fin L → ℝ) :
    ∑ l : Fin L, (∑ k : Fin K, a k * x k l) * w l = ∑ k : Fin K, a k * ∑ l : Fin L, x k l * w l := by
  simp_rw [Finset.sum_mul, Finset.mul_sum]
  rw [Finset.sum_comm]
  exact Finset.sum_congr rfl fun k _ => Finset.sum_congr rfl fun l _ => by ring

/-- The product of three matrices of real entries is associative on the extended reals. -/
theorem mm_assoc (A : Mat M K) (X : Mat K L) (W : Mat L N) (hA : Finite A) (hX : Finite X) (hW : Finite W) :
    mm (mm A X) W = mm A (mm X W) := by
  funext i
  obtain ⟨p, q, rfl⟩ : ∃ (p : Fin M) (q : Fin N), i = ix2 p q := ⟨i 0, i 1, eq_ix2 i⟩
  choose a ha using hA
  choose x hx using hX
  choose w hw using hW
  have hl : mm (mm A X) W (ix2 p q)
      = ((∑ l : Fin L, (∑ k : Fin K, a (ix2 p k) * x (ix2 k l)) * w (ix2 l q) : ℝ) : EReal) := by
    show ∑ l : Fin L, (∑ k : Fin K, A (ix2 p k) * X (ix2 k l)) * W (ix2 l q) = _
    rw [coe_sum]
    refine Finset.sum_congr rfl fun l _ => ?_
    rw [EReal.coe_mul, coe_sum, hw]
    refine congrArg (· * (w (ix2 l q) : EReal)) (Finset.sum_congr rfl fun k _ => ?_)
    rw [EReal.coe_mul, ha, hx]
  have hr : mm A (mm X W) (ix2 p q)
      = ((∑ k : Fin K, a (ix2 p k) * ∑ l : Fin L, x (ix2 k l) * w (ix2 l q) : ℝ) : EReal) := by
    show ∑ k : Fin K, A (ix2 p k) * (∑ l : Fin L, X (ix2 k l) * W (ix2 l q)) = _
    rw [coe_sum]
    refine Finset.sum_congr rfl fun k _ => ?_
    rw [EReal.coe_mul, coe_sum, ha]
    refine congrArg ((a (ix2 p k) : EReal) * ·) (Finset.sum_congr rfl fun l _ => ?_)
    rw [EReal.coe_mul, hx, hw]
  rw [hl, hr]
  exact congrArg _ (real_assoc (fun k => a (ix2 p k)) (fun k l => x (ix2 k l)) (fun l => w (ix2 l q)))

end Cert.Gcn

end
-- ==== Proof.LibIndexed.lean ====
/-
  Rows taken and rows accumulated by run-time indices, entry by entry.

  Taking rows of a matrix by an integer column of indices reads, at result entry (r, c), the matrix at row
  "index r, read as a signed integer and clamped into the matrix's rows" and column c; taking entries of a
  flat array is the same without the column. Accumulating rows into a matrix by an integer column of indices
  adds update entry (r, c) to entry (index r, c) of the matrix when index r, read as a signed integer and NOT
  clamped, is one of the matrix's rows, and drops it otherwise; so on the extended reals every entry of the
  result is the entry it had plus the sum of the update entries whose index names its row.
-/
import Idealize.ShloMosaic.Lib.ValueIdx
import Idealize.ShloMosaic.Lib.Pipeline.Value
import Idealize.ShloMosaic.PureOps.Ideal.Laws

noncomputable section

open scoped BigOperators

namespace Cert.Indexed

open Idealize.ShloMosaic Idealize.ShloMosaic.ValueIdx

variable {α : Type}

/-- A word read as a signed integer and clamped into the rows 0 … N − 1. -/
def clampRow (N : Nat) (hN : 0 < N) {w : Nat} (v : BitVec w) : Fin N := ⟨min v.toInt.toNat (N - 1), by omega⟩

/-- A word, read as a signed integer and not clamped, names the row i. -/
def Names {N w : Nat} (v : BitVec w) (i : Fin N) : Prop := v.toInt = (i.val : ℤ)

instance {N w : Nat} (v : BitVec w) (i : Fin N) : Decidable (Names v i) := by unfold Names; infer_instance

/-! ## Taking entries of a flat array -/

/-- The dimension numbers of x[idx] for a flat array of N entries and a column of M indices. -/
abbrev flatGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry r of the taken array is the array at index r, clamped. -/
theorem flatGather_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatGather N M wf) x idx y = x (ix1 (clampRow N hN (idx (ix2 (y 0) (0 : Fin 1))))) := by
  unfold Host.gather
  congr 1
  funext a
  obtain rfl : a = 0 := Subsingleton.elim _ _
  refine Fin.ext ?_
  show (flatGather N M wf).start y idx 0 + (flatGather N M wf).batchCoord y 0 + (flatGather N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N M wf).startIndexMap from List.mem_singleton.mpr rfl)]
  have hsi : (flatGather N M wf).siIdx y ⟨List.idxOf (0 : Fin 1) (flatGather N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-! ## Taking rows of a matrix -/

/-- The dimension numbers of x[idx] for a matrix of N rows of C and a column of M indices. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Entry (r, c) of the taken rows is the matrix at row "index r, clamped" and column c. -/
theorem rowGather_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowGather N C M wf) x idx y = x (ix2 (clampRow N hN (idx (ix2 (y 0) (0 : Fin 1)))) (y 1)) := by
  unfold Host.gather
  congr 1
  funext a
  refine Fin.ext ?_
  have key : ∀ a : Fin 2, (rowGather N C M wf).start y idx a + (rowGather N C M wf).batchCoord y a
      + (rowGather N C M wf).offCoord y a = ((ix2 (clampRow N hN (idx (ix2 (y 0) (0 : Fin 1)))) (y 1) :
        (⟨2, ![N, C]⟩ : Shape).Idx) a).val := by
    refine Fin.forall_fin_two.2 ⟨?_, ?_⟩
    · rw [GatherDims.batchCoord_eq_zero _ _ _ List.not_mem_nil,
        GatherDims.offCoord_eq_zero _ _ _ (fun h => ((GatherDims.mem_sKept _ _).mp h).1 (List.mem_singleton.mpr rfl))]
      simp only [Nat.add_zero]
      unfold GatherDims.start
      rw [dif_pos (show (0 : Fin 2) ∈ (rowGather N C M wf).startIndexMap from List.mem_singleton.mpr rfl)]
      have hsi : (rowGather N C M wf).siIdx y ⟨List.idxOf (0 : Fin 2) (rowGather N C M wf).startIndexMap,
          List.idxOf_lt_length_iff.2 (List.mem_singleton.mpr rfl)⟩ = ix2 (y 0) (0 : Fin 1) := by
        funext b; refine Fin.ext ?_
        match b with
        | ⟨0, _⟩ => rfl
        | ⟨1, _⟩ => rfl
      rw [hsi]
      rfl
    · rw [GatherDims.batchCoord_eq_zero _ _ _ List.not_mem_nil]
      unfold GatherDims.start
      rw [dif_neg (show (1 : Fin 2) ∉ ([0] : List (Fin 2)) from by decide)]
      simp only [Nat.add_zero, Nat.zero_add]
      unfold GatherDims.offCoord
      rw [dif_pos ((GatherDims.mem_sKept (rowGather N C M wf) 1).mpr ⟨(show (1 : Fin 2) ∉ ([0] : List (Fin 2)) from by decide), List.not_mem_nil⟩)]
      rfl
  exact key a

/-! ## Sums over the entries of a column and of a matrix, by coordinates -/

/-- A flat index set is its one coordinate's range. -/
def idxEquiv1 {n : Nat} : (⟨1, ![n]⟩ : Shape).Idx ≃ Fin n where
  toFun i := i 0
  invFun r := ix1 r
  left_inv i := (eq_ix1 i).symm
  right_inv _ := rfl

/-- A sum over a flat index set is the sum over its coordinate. -/
theorem sum_idx1 {A : Type*} [AddCommMonoid A] {n : Nat} (f : (⟨1, ![n]⟩ : Shape).Idx → A) :
    ∑ i, f i = ∑ r : Fin n, f (ix1 r) := by
  rw [← Equiv.sum_comp (idxEquiv1 (n := n)).symm f]; rfl

/-- The flat entries whose coordinate satisfies P, summed: the sum over the coordinates that satisfy P. -/
theorem sum_filter_idx1 {A : Type*} [AddCommMonoid A] {n : Nat} (P : Fin n → Prop) [DecidablePred P]
    [DecidablePred fun j : (⟨1, ![n]⟩ : Shape).Idx => P (j 0)] (f : (⟨1, ![n]⟩ : Shape).Idx → A) :
    ∑ j ∈ Finset.univ.filter (fun j : (⟨1, ![n]⟩ : Shape).Idx => P (j 0)), f j
      = ∑ r ∈ Finset.univ.filter P, f (ix1 r) := by
  rw [Finset.sum_filter, Finset.sum_filter, sum_idx1]
  exact Finset.sum_congr rfl fun r _ => by congr

/-- The entries of a matrix in column c whose row satisfies P, summed: the sum over the rows that satisfy P. -/
theorem sum_filter_idx2 {A : Type*} [AddCommMonoid A] {n C : Nat} (P : Fin n → Prop) [DecidablePred P] (c : Fin C)
    [DecidablePred fun j : (⟨2, ![n, C]⟩ : Shape).Idx => P (j 0) ∧ (j 1).val = c.val] (f : (⟨2, ![n, C]⟩ : Shape).Idx → A) :
    ∑ j ∈ Finset.univ.filter (fun j : (⟨2, ![n, C]⟩ : Shape).Idx => P (j 0) ∧ (j 1).val = c.val), f j
      = ∑ r ∈ Finset.univ.filter P, f (ix2 r c) := by
  rw [Finset.sum_filter, Finset.sum_filter, sum_idx2]
  refine Finset.sum_congr rfl fun r _ => ?_
  have e : ∀ b : Fin C, (P ((ix2 r b : (⟨2, ![n, C]⟩ : Shape).Idx) 0)
      ∧ ((ix2 r b : (⟨2, ![n, C]⟩ : Shape).Idx) 1).val = c.val) ↔ (P r ∧ b = c) :=
    fun b => ⟨fun h => ⟨h.1, Fin.ext h.2⟩, fun h => ⟨h.1, congrArg Fin.val h.2⟩⟩
  simp only [e]
  by_cases hP : P r
  · simp [hP]
  · simp [hP]

/-! ## Accumulating entries into a flat array -/

/-- The dimension numbers of x.at[idx].add(u) for a flat array of N entries and a column of M indices. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update entry r lands on entry i exactly when index r names i. -/
theorem flatScatter_lands {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : (⟨1, ![N]⟩ : Shape).Idx) :
    (flatScatter N M wf).resultIdx? j idx = some i ↔ Names (idx (ix2 (j 0) (0 : Fin 1))) (i 0) := by
  have hs : (flatScatter N M wf).start j idx 0 = (idx (ix2 (j 0) (0 : Fin 1))).toInt := by
    unfold ScatterDims.start
    rw [dif_pos (show (0 : Fin 1) ∈ ([0] : List (Fin 1)) from List.mem_singleton.mpr rfl)]
    have hsi : (flatScatter N M wf).siIdx j ⟨List.idxOf (0 : Fin 1) (flatScatter N M wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hw : (flatScatter N M wf).window j 0 = 0 := by
    unfold ScatterDims.window
    rw [dif_neg (by simp [ScatterDims.sKept, Shape.kept])]
  have hi : (i 0).val < N := (i 0).isLt
  have hsz : ((⟨1, ![N]⟩ : Shape).size 0 : ℤ) = (N : ℤ) := rfl
  unfold ScatterDims.resultIdx?
  split
  · rename_i h
    have h0 := h 0
    rw [hs, hw] at h0
    constructor
    · intro e
      have e0 : ((flatScatter N M wf).start j idx 0 + ((flatScatter N M wf).window j 0 : ℤ)).toNat = (i 0).val :=
        congrArg (fun f : (⟨1, ![N]⟩ : Shape).Idx => (f 0).val) (Option.some.inj e)
      rw [hs, hw] at e0
      unfold Names; omega
    · intro hn
      refine congrArg some (funext fun a => ?_)
      obtain rfl : a = 0 := Subsingleton.elim _ _
      refine Fin.ext ?_
      show ((flatScatter N M wf).start j idx 0 + ((flatScatter N M wf).window j 0 : ℤ)).toNat = (i 0).val
      rw [hs, hw]; unfold Names at hn; omega
  · rename_i h
    constructor
    · intro e; cases e
    · intro hn
      exfalso; apply h; intro a
      obtain rfl : a = 0 := Subsingleton.elim _ _
      rw [hs, hw, hsz]
      unfold Names at hn
      constructor <;> omega

/-- On the extended reals: entry i of the result is the entry it had plus the sum of the updates whose index names i. -/
theorem flatScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : (⟨1, ![N]⟩ : Shape).Idx) :
    Ideal.hostScatterAdd (flatScatter N M wf) x idx upd i
      = x i + ∑ r ∈ Finset.univ.filter (fun r : Fin M => Names (idx (ix2 r (0 : Fin 1))) (i 0)), upd (ix1 r) := by
  unfold Ideal.hostScatterAdd
  congr 1
  rw [Finset.filter_congr (fun j _ => flatScatter_lands wf idx j i)]
  exact sum_filter_idx1 (fun r : Fin M => Names (idx (ix2 r (0 : Fin 1))) (i 0)) upd

/-! ## Accumulating rows into a matrix -/

/-- The dimension numbers of x.at[idx].add(u) for a matrix of N rows of C and a column of M indices. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update entry (r, c) lands on entry (i, c') exactly when index r names i and c is c'. -/
theorem rowScatter_lands {N C M w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) (i : (⟨2, ![N, C]⟩ : Shape).Idx) :
    (rowScatter N C M wf).resultIdx? j idx = some i
      ↔ Names (idx (ix2 (j 0) (0 : Fin 1))) (i 0) ∧ (j 1).val = (i 1).val := by
  have hs0 : (rowScatter N C M wf).start j idx 0 = (idx (ix2 (j 0) (0 : Fin 1))).toInt := by
    unfold ScatterDims.start
    rw [dif_pos (show (0 : Fin 2) ∈ ([0] : List (Fin 2)) from List.mem_singleton.mpr rfl)]
    have hsi : (rowScatter N C M wf).siIdx j ⟨List.idxOf (0 : Fin 2) (rowScatter N C M wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hs1 : (rowScatter N C M wf).start j idx 1 = 0 := by
    unfold ScatterDims.start
    rw [dif_neg (show (1 : Fin 2) ∉ ([0] : List (Fin 2)) from by decide)]
  have hw0 : (rowScatter N C M wf).window j 0 = 0 := by
    unfold ScatterDims.window
    rw [dif_neg (by simp [ScatterDims.sKept, Shape.kept])]
  have hw1 : (rowScatter N C M wf).window j 1 = (j 1).val := by
    unfold ScatterDims.window
    rw [dif_pos (by simp [ScatterDims.sKept, Shape.kept])]
    rfl
  have hi0 : (i 0).val < N := idx2_lt0 i
  have hi1 : (i 1).val < C := idx2_lt1 i
  have hj1 : (j 1).val < C := idx2_lt1 j
  have hsz0 : ((⟨2, ![N, C]⟩ : Shape).size 0 : ℤ) = (N : ℤ) := rfl
  have hsz1 : ((⟨2, ![N, C]⟩ : Shape).size 1 : ℤ) = (C : ℤ) := rfl
  unfold ScatterDims.resultIdx?
  split
  · rename_i h
    have h0 := h 0
    have h1 := h 1
    rw [hs0, hw0] at h0
    rw [hs1, hw1] at h1
    constructor
    · intro e
      have e0 : ((rowScatter N C M wf).start j idx 0 + ((rowScatter N C M wf).window j 0 : ℤ)).toNat = (i 0).val :=
        congrArg (fun f : (⟨2, ![N, C]⟩ : Shape).Idx => (f 0).val) (Option.some.inj e)
      have e1 : ((rowScatter N C M wf).start j idx 1 + ((rowScatter N C M wf).window j 1 : ℤ)).toNat = (i 1).val :=
        congrArg (fun f : (⟨2, ![N, C]⟩ : Shape).Idx => (f 1).val) (Option.some.inj e)
      rw [hs0, hw0] at e0
      rw [hs1, hw1] at e1
      unfold Names; constructor <;> omega
    · rintro ⟨hn, hc⟩
      refine congrArg some (funext fun a => Fin.ext ?_)
      have key : ∀ a : Fin 2, ((rowScatter N C M wf).start j idx a + ((rowScatter N C M wf).window j a : ℤ)).toNat
          = (i a).val := by
        refine Fin.forall_fin_two.2 ⟨?_, ?_⟩
        · rw [hs0, hw0]; unfold Names at hn; omega
        · rw [hs1, hw1]; omega
      exact key a
  · rename_i h
    constructor
    · intro e; cases e
    · rintro ⟨hn, hc⟩
      exfalso; apply h
      unfold Names at hn
      refine Fin.forall_fin_two.2 ⟨?_, ?_⟩
      · rw [hs0, hw0, hsz0]; constructor <;> omega
      · rw [hs1, hw1, hsz1]; constructor <;> omega

/-- On the extended reals: entry (i, c) of the result is the entry it had plus the sum over the update rows whose index
    names i of their entry in column c. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (p : Fin N) (c : Fin C) :
    Ideal.hostScatterAdd (rowScatter N C M wf) x idx upd (ix2 p c)
      = x (ix2 p c) + ∑ r ∈ Finset.univ.filter (fun r : Fin M => Names (idx (ix2 r (0 : Fin 1))) p), upd (ix2 r c) := by
  unfold Ideal.hostScatterAdd
  congr 1
  rw [Finset.filter_congr (fun j _ => rowScatter_lands wf idx j (ix2 p c))]
  exact sum_filter_idx2 (fun r : Fin M => Names (idx (ix2 r (0 : Fin 1))) p) c upd

/-! ## The same readings at an entry named by its coordinates -/

/-- Entry r of the taken array, r a coordinate. -/
theorem flatGather_at {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (r : Fin M) :
    Host.gather (flatGather N M wf) x idx (ix1 r) = x (ix1 (clampRow N hN (idx (ix2 r (0 : Fin 1))))) :=
  flatGather_apply hN wf x idx (ix1 r)

/-- Entry (r, c) of the taken rows, r and c coordinates. -/
theorem rowGather_at {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (r : Fin M) (c : Fin C) :
    Host.gather (rowGather N C M wf) x idx (ix2 r c) = x (ix2 (clampRow N hN (idx (ix2 r (0 : Fin 1)))) c) :=
  rowGather_apply hN wf x idx (ix2 r c)

/-- Entry i of the accumulated flat array, i a coordinate. -/
theorem flatScatterAdd_at {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Ideal.hostScatterAdd (flatScatter N M wf) x idx upd (ix1 i)
      = x (ix1 i) + ∑ r ∈ Finset.univ.filter (fun r : Fin M => Names (idx (ix2 r (0 : Fin 1))) i), upd (ix1 r) :=
  flatScatterAdd_apply wf x idx upd (ix1 i)

end Cert.Indexed

end
-- ==== Proof.LibGraphConv.lean ====
/-
  A segment sum of gathered, scaled rows commutes with a matrix product on the right — on the extended reals, for
  real entries.

  Rows of a matrix H are taken by a column of run-time indices, scaled row by row by a column of weights a, and added
  into the rows another index column names: entry (v, k) of the result is the sum over the messages e landing on v of
  a(e) · H(ρ(e), k). Multiplying the result by W on the right gives, at (v, o), the sum over k of those sums times
  W(k, o); doing the product first, on H, and the segment sum after gives the sum over the messages landing on v of
  a(e) · (sum over k of H(ρ(e), k) · W(k, o)). The two are equal by distributivity of the product over a finite sum
  and exchanging the two sums: true of real numbers, false at the infinities, so every entry of a, H and W is taken
  real and the sums are computed in the reals.

  Beside it: which extended reals are real numbers and which operations keep them so, and the broadcasts of a column
  read at an entry.
-/
import proofs.«119981_j14920716386718_2_alg».proof.Proof.LibMatAssoc
import proofs.«119981_j14920716386718_2_alg».proof.Proof.LibIndexed

noncomputable section

open scoped BigOperators

namespace Cert.GraphConv

open Cert.Dense Cert.Gcn Cert.Indexed Idealize.ShloMosaic Idealize.ShloMosaic.ValueIdx

/-! ## Real numbers among the extended reals -/

/-- An extended real that is a real number (neither infinity). -/
def IsReal (x : EReal) : Prop := ∃ r : ℝ, x = (r : EReal)

theorem isReal_zero : IsReal 0 := ⟨0, EReal.coe_zero.symm⟩
theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases le_total x y with h | h
  · rw [max_eq_right h]; exact hy
  · rw [max_eq_left h]; exact hx
/-- A power of a real base to a real exponent is real (the real power function is total). -/
theorem IsReal.pow {x y : EReal} (hx : IsReal x) (hy : IsReal y) : IsReal (Ideal.pow x y) := by
  obtain ⟨a, rfl⟩ := hx; obtain ⟨b, rfl⟩ := hy; exact ⟨Real.rpow a b, rfl⟩
theorem IsReal.sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- An f32 word whose exponent field is not all ones denotes a real number. -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  dsimp only
  rw [if_neg h]
  split
  · exact ⟨_, rfl⟩
  · exact ⟨_, rfl⟩

/-! ## Arrays of real entries -/

section Arrays
variable {s t : Shape}

theorem finite_of_forall {X : s.Idx → EReal} (h : ∀ i, IsReal (X i)) : Finite X := h
theorem Finite.isReal {X : s.Idx → EReal} (h : Finite X) (i : s.Idx) : IsReal (X i) := h i

theorem finite_mulf {φ : FTy} {x y : FVec Ideal s φ} (hx : Finite x) (hy : Finite y) : Finite (mulf x y) :=
  fun i => IsReal.mul (hx i) (hy i)
theorem finite_addf {φ : FTy} {x y : FVec Ideal s φ} (hx : Finite x) (hy : Finite y) : Finite (addf x y) :=
  fun i => IsReal.add (hx i) (hy i)
theorem finite_subf {φ : FTy} {x y : FVec Ideal s φ} (hx : Finite x) (hy : Finite y) : Finite (subf x y) :=
  fun i => IsReal.sub (hx i) (hy i)
theorem finite_maximumf {φ : FTy} {x y : FVec Ideal s φ} (hx : Finite x) (hy : Finite y) : Finite (maximumf x y) :=
  fun i => IsReal.max (hx i) (hy i)
theorem finite_hostNegf {φ : FTy} {x : FVec Ideal s φ} (hx : Finite x) : Finite (Host.negf x) :=
  fun i => IsReal.neg (hx i)
theorem finite_hostPowf {φ : FTy} {x y : FVec Ideal s φ} (hx : Finite x) (hy : Finite y) : Finite (Host.powf x y) :=
  fun i => IsReal.pow (hx i) (hy i)
theorem finite_uitofp {φ : FTy} {w : ℕ} (x : IVec s w) : Finite (uitofp (F := Ideal) φ x) :=
  fun i => ⟨_, rfl⟩
theorem finite_constant_f32 (b : BitVec 32) (h : (b.extractLsb' 23 8).toNat ≠ 2 ^ 8 - 1) :
    Finite (constant (F := Ideal) s .f32 b) := fun _ => isReal_ofBits_f32 b h
theorem finite_broadcast (x : EReal) (hx : IsReal x) : Finite (broadcast s x) := fun _ => hx

/-- A layout operation, a broadcast or a gather reads its operand at some index: real entries stay real. -/
theorem finite_broadcastInDim {dims : Fin s.rank → Fin t.rank} (h : s.BroadcastsInDim t dims) {x : s.Idx → EReal}
    (hx : Finite x) : Finite (broadcastInDim t dims h x) := fun _ => hx _
theorem finite_broadcastTo (h : s.Broadcasts t) {x : s.Idx → EReal} (hx : Finite x) : Finite (broadcastTo t x h) :=
  fun _ => hx _
theorem finite_shapeCast (h : s.ShapeCasts t) {x : s.Idx → EReal} (hx : Finite x) : Finite (shapeCast t x h) :=
  fun _ => hx _
theorem finite_gather {si : Shape} {w : ℕ} (d : GatherDims s si t) {x : s.Idx → EReal} (idx : IVec si w)
    (hx : Finite x) : Finite (Host.gather d x idx) := fun _ => hx _
/-- A scatter-add adds finitely many of the updates to each entry. -/
theorem finite_scatterAdd {si su : Shape} {w : ℕ} (d : ScatterDims s si su) {x : s.Idx → EReal} (idx : IVec si w)
    {upd : su.Idx → EReal} (hx : Finite x) (hu : Finite upd) :
    Finite (Host.scatterAdd (F := Ideal) (φ := .f32) d x idx upd) := by
  intro i
  show IsReal (Ideal.hostScatterAdd d x idx upd i)
  unfold Ideal.hostScatterAdd
  exact IsReal.add (hx i) (IsReal.sum _ _ fun j _ => hu j)

end Arrays

/-- A matrix product of real entries has real entries. -/
theorem finite_mm {M K N : ℕ} {A : Mat M K} {W : Mat K N} (hA : Finite A) (hW : Finite W) : Finite (mm A W) :=
  fun i => IsReal.sum _ _ fun k _ => IsReal.mul (hA _) (hW _)
theorem finite_affine2 {M K N : ℕ} {A : Mat M K} {W : Mat K N} {b : Mat 1 N} (hA : Finite A) (hW : Finite W)
    (hb : Finite b) : Finite (affine2 A W b) := fun i => IsReal.add (finite_mm hA hW i) (hb _)
theorem finite_relu {M N : ℕ} {X : Mat M N} (hX : Finite X) : Finite (relu X) := fun i => IsReal.max (hX i) isReal_zero

/-! ## Broadcasts of a column, read at an entry -/

section Bcast
variable {α : Type}

/-- A scalar broadcast to any shape reads the scalar. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun ax => ax.elim0)

/-- A flat array of M entries as an M×1 column. -/
theorem bcast_col_apply {M : ℕ} (h : (⟨1, ![M]⟩ : Shape).BroadcastsInDim ⟨2, ![M, 1]⟩ ![0])
    (x : (⟨1, ![M]⟩ : Shape).Idx → α) (e : Fin M) (z : Fin 1) :
    broadcastInDim ⟨2, ![M, 1]⟩ ![0] h x (ix2 e z) = x (ix1 e) :=
  broadcastInDim_apply ![0] h x (ix2 e z) (ix1 e) (fun ax => by
    match ax with
    | ⟨0, _⟩ =>
      show e.val = if M = 1 then 0 else e.val
      split
      · have := e.isLt; omega
      · rfl)

/-- An M×1 column repeated over C columns. -/
theorem bcast_cols_apply {M C : ℕ} (h : (⟨2, ![M, 1]⟩ : Shape).BroadcastsInDim ⟨2, ![M, C]⟩ ![0, 1])
    (x : (⟨2, ![M, 1]⟩ : Shape).Idx → α) (e : Fin M) (c : Fin C) :
    broadcastInDim ⟨2, ![M, C]⟩ ![0, 1] h x (ix2 e c) = x (ix2 e (0 : Fin 1)) :=
  broadcastInDim_apply ![0, 1] h x (ix2 e c) (ix2 e (0 : Fin 1)) (fun ax => by
    match ax with
    | ⟨0, _⟩ =>
      show e.val = if M = 1 then 0 else e.val
      split
      · have := e.isLt; omega
      · rfl
    | ⟨1, _⟩ => rfl)

/-- The vector unit's broadcast of an A×1 column over B columns. -/
theorem broadcastTo_col_apply {A B : ℕ} (x : (⟨2, ![A, 1]⟩ : Shape).Idx → α)
    (h : (⟨2, ![A, 1]⟩ : Shape).Broadcasts ⟨2, ![A, B]⟩) (p : Fin A) (q : Fin B) :
    broadcastTo ⟨2, ![A, B]⟩ x h (ix2 p q) = x (ix2 p (0 : Fin 1)) := by
  refine broadcastTo_apply x h (ix2 p q) (ix2 p (0 : Fin 1)) fun ax => ?_
  match ax with
  | ⟨0, _⟩ =>
    show p.val = if A = 1 then 0 else p.val
    split
    · have := p.isLt; omega
    · rfl
  | ⟨1, _⟩ => rfl

end Bcast

/-! ## The linear step -/

/-- In the reals: a weighted sum of rows times a column is the weighted sum of the rows' products with the column. -/
theorem real_lin {ι : Type} {K : ℕ} (L : Finset ι) (a : ι → ℝ) (h : ι → Fin K → ℝ) (w : Fin K → ℝ) :
    ∑ k : Fin K, (∑ e ∈ L, a e * h e k) * w k = ∑ e ∈ L, a e * ∑ k : Fin K, h e k * w k := by
  simp_rw [Finset.sum_mul, Finset.mul_sum]
  rw [Finset.sum_comm]
  exact Finset.sum_congr rfl fun e _ => Finset.sum_congr rfl fun k _ => by ring

/-- The same on the extended reals, every entry real: the zero the segment sum starts from and the zero bias the
    early product adds are absorbed. -/
theorem segment_lin {M N K O : ℕ} (L : Finset (Fin M)) (a : Fin M → EReal) (r : Fin M → Fin N) (H : Mat N K) (W : Mat K O)
    (o : Fin O) (ha : ∀ e, IsReal (a e)) (hH : Finite H) (hW : Finite W) :
    0 + ∑ e ∈ L, a e * (∑ k : Fin K, H (ix2 (r e) k) * W (ix2 k o) + 0)
      = ∑ k : Fin K, (0 + ∑ e ∈ L, a e * H (ix2 (r e) k)) * W (ix2 k o) := by
  choose a' ha' using ha
  choose h' hh' using hH
  choose w' hw' using hW
  have hl : 0 + ∑ e ∈ L, a e * (∑ k : Fin K, H (ix2 (r e) k) * W (ix2 k o) + 0)
      = ((∑ e ∈ L, a' e * ∑ k : Fin K, h' (ix2 (r e) k) * w' (ix2 k o) : ℝ) : EReal) := by
    rw [zero_add, coe_sum]
    refine Finset.sum_congr rfl fun e _ => ?_
    rw [add_zero, EReal.coe_mul, coe_sum, ha']
    refine congrArg ((a' e : EReal) * ·) (Finset.sum_congr rfl fun k _ => ?_)
    rw [EReal.coe_mul, hh', hw']
  have hr : ∑ k : Fin K, (0 + ∑ e ∈ L, a e * H (ix2 (r e) k)) * W (ix2 k o)
      = ((∑ k : Fin K, (∑ e ∈ L, a' e * h' (ix2 (r e) k)) * w' (ix2 k o) : ℝ) : EReal) := by
    rw [coe_sum]
    refine Finset.sum_congr rfl fun k _ => ?_
    rw [zero_add, EReal.coe_mul, coe_sum, hw']
    refine congrArg (· * (w' (ix2 k o) : EReal)) (Finset.sum_congr rfl fun e _ => ?_)
    rw [EReal.coe_mul, ha', hh']
  rw [hl, hr]
  exact congrArg _ (real_lin L a' (fun e k => h' (ix2 (r e) k)) (fun k => w' (ix2 k o))).symm

/-- THE LINEAR STEP, at the operations: gathering rows of H · W (a product with a zero bias row), scaling them and
    segment-summing is the segment sum of the scaled gathered rows of H, times W — for real weights and entries. -/
theorem scatter_gather_mm {N M K O w : ℕ} (hN : 0 < N)
    (wfSO : ScatterDims.WF ⟨2, ![N, O]⟩ ⟨2, ![M, 1]⟩ ⟨2, ![M, O]⟩ [1] [0] [0] 1)
    (wfSK : ScatterDims.WF ⟨2, ![N, K]⟩ ⟨2, ![M, 1]⟩ ⟨2, ![M, K]⟩ [1] [0] [0] 1)
    (wfGO : GatherDims.WF ⟨2, ![N, O]⟩ ⟨2, ![M, 1]⟩ ⟨2, ![M, O]⟩ [1] [0] [] [0] [] 1 ![1, O])
    (wfGK : GatherDims.WF ⟨2, ![N, K]⟩ ⟨2, ![M, 1]⟩ ⟨2, ![M, K]⟩ [1] [0] [] [0] [] 1 ![1, K])
    (hbO : (⟨2, ![M, 1]⟩ : Shape).BroadcastsInDim ⟨2, ![M, O]⟩ ![0, 1])
    (hbK : (⟨2, ![M, 1]⟩ : Shape).BroadcastsInDim ⟨2, ![M, K]⟩ ![0, 1])
    (zO : Mat N O) (zK : Mat N K) (hzO : ∀ i, zO i = 0) (hzK : ∀ i, zK i = 0)
    (colc rown : IVec ⟨2, ![M, 1]⟩ w) (a : (⟨2, ![M, 1]⟩ : Shape).Idx → EReal)
    (H : Mat N K) (W : Mat K O) (zb : Mat 1 O) (hzb : ∀ q, zb (ix2 (0 : Fin 1) q) = 0)
    (ha : Finite a) (hH : Finite H) (hW : Finite W) :
    Host.scatterAdd (F := Ideal) (φ := .f32) (rowScatter N O M wfSO) zO colc
        (mulf (F := Ideal) (φ := .f32) (broadcastInDim ⟨2, ![M, O]⟩ ![0, 1] hbO a)
          (Host.gather (rowGather N O M wfGO) (affine2 H W zb) rown))
      = mm (Host.scatterAdd (F := Ideal) (φ := .f32) (rowScatter N K M wfSK) zK colc
          (mulf (F := Ideal) (φ := .f32) (broadcastInDim ⟨2, ![M, K]⟩ ![0, 1] hbK a)
            (Host.gather (rowGather N K M wfGK) H rown))) W := by
  funext i
  obtain ⟨v, o, rfl⟩ : ∃ (v : Fin N) (o : Fin O), i = ix2 v o := ⟨i 0, i 1, eq_ix2 i⟩
  have hL : Host.scatterAdd (F := Ideal) (φ := .f32) (rowScatter N O M wfSO) zO colc
        (mulf (F := Ideal) (φ := .f32) (broadcastInDim ⟨2, ![M, O]⟩ ![0, 1] hbO a)
          (Host.gather (rowGather N O M wfGO) (affine2 H W zb) rown)) (ix2 v o)
      = 0 + ∑ e ∈ Finset.univ.filter (fun e : Fin M => Names (colc (ix2 e (0 : Fin 1))) v),
          a (ix2 e (0 : Fin 1)) * (∑ k : Fin K, H (ix2 (clampRow N hN (rown (ix2 e (0 : Fin 1)))) k) * W (ix2 k o) + 0) := by
    refine (rowScatterAdd_apply wfSO zO colc _ v o).trans ?_
    rw [hzO]
    refine congrArg (0 + ·) (Finset.sum_congr rfl fun e _ => ?_)
    show broadcastInDim ⟨2, ![M, O]⟩ ![0, 1] hbO a (ix2 e o) * Host.gather (rowGather N O M wfGO) (affine2 H W zb) rown (ix2 e o) = _
    rw [bcast_cols_apply, rowGather_at hN]
    show _ * (mm H W (ix2 (clampRow N hN (rown (ix2 e (0 : Fin 1)))) o) + zb (ix2 (0 : Fin 1) o)) = _
    rw [hzb]
    rfl
  have hR : ∀ k : Fin K, Host.scatterAdd (F := Ideal) (φ := .f32) (rowScatter N K M wfSK) zK colc
        (mulf (F := Ideal) (φ := .f32) (broadcastInDim ⟨2, ![M, K]⟩ ![0, 1] hbK a)
          (Host.gather (rowGather N K M wfGK) H rown)) (ix2 v k)
      = 0 + ∑ e ∈ Finset.univ.filter (fun e : Fin M => Names (colc (ix2 e (0 : Fin 1))) v),
          a (ix2 e (0 : Fin 1)) * H (ix2 (clampRow N hN (rown (ix2 e (0 : Fin 1)))) k) := by
    intro k
    refine (rowScatterAdd_apply wfSK zK colc _ v k).trans ?_
    rw [hzK]
    refine congrArg (0 + ·) (Finset.sum_congr rfl fun e _ => ?_)
    show broadcastInDim ⟨2, ![M, K]⟩ ![0, 1] hbK a (ix2 e k) * Host.gather (rowGather N K M wfGK) H rown (ix2 e k) = _
    rw [bcast_cols_apply, rowGather_at hN]
  have key : ∀ X : Mat N K, mm X W (ix2 v o) = ∑ k : Fin K, X (ix2 v k) * W (ix2 k o) := fun X => rfl
  rw [hL, key]
  refine (segment_lin _ (fun e => a (ix2 e (0 : Fin 1))) (fun e => clampRow N hN (rown (ix2 e (0 : Fin 1)))) H W o
    (fun e => ha _) hH hW).trans ?_
  exact Finset.sum_congr rfl fun k _ => congrArg (· * W (ix2 k o)) (hR k).symm

end Cert.GraphConv

end
-- ==== Proof.RegionMid.lean ====
/-
  The middle region: h = max((msg · dinv + b) + rlin, 0), then [h·Wl | h·Wr], rows in blocks of 10000.

  The region reads the 32-column array [msg | rlin] and the column of reciprocal counts in ten blocks of 10000
  rows, and the bias row and the two 16×1 weight columns whole. Per row it scales the first 16 columns by the
  row's reciprocal count, adds the bias row and the last 16 columns, rectifies, and writes the two products of
  the rectified row with the weight columns side by side. Everything is row by row, so every block written back
  is the block of ONE whole-array function, and the ten blocks cover the 100000 rows.
-/
import proofs.«119981_j14920716386718_2_alg».proof.Proof.Gen.KernelIdeal.Frame
import proofs.«119981_j14920716386718_2_alg».proof.Proof.LibGraphConv
import Idealize.ShloMosaic.Lib.ValueLayout
import Idealize.ShloMosaic.Lib.Pipeline.Value

set_option maxRecDepth 16384

noncomputable section

namespace Cert.Sage.Mid

open Cert.Dense Cert.GraphConv Cert.KernelIdeal Cert.KernelIdeal.Gen Idealize.ShloMosaic Idealize.ShloMosaic.TcCoe
open Idealize.ShloMosaic.ValueIdx Idealize.SL.Sem
open Idealize.ShloMosaic.Pipeline (Dat Cfg Window)

/-- Column c of the first half of the 32 columns. -/
def lo16 (c : Fin 16) : Fin 32 := ⟨c.val, by have := c.isLt; omega⟩
/-- Column c of the second half. -/
def hi16 (c : Fin 16) : Fin 32 := ⟨16 + c.val, by have := c.isLt; omega⟩

/-- Before the rectifier: the first half scaled by the row's reciprocal count, plus the bias row, plus the second half. -/
def act {M : ℕ} (MR : Mat M 32) (D : Mat M 1) (B : Mat 1 16) : Mat M 16 :=
  fun i => (MR (ix2 (i 0) (lo16 (i 1))) * D (ix2 (i 0) (0 : Fin 1)) + B (ix2 (0 : Fin 1) (i 1))) + MR (ix2 (i 0) (hi16 (i 1)))

/-- The two one-column products of the rectified rows, side by side. -/
def midFn {M : ℕ} (MR : Mat M 32) (D : Mat M 1) (B : Mat 1 16) (Wl Wr : Mat 16 1) : Mat M 2 :=
  fun i => if (i 1).val = 0 then mm (relu (act MR D B)) Wl (ix2 (i 0) (0 : Fin 1)) else mm (relu (act MR D B)) Wr (ix2 (i 0) (0 : Fin 1))

theorem midFn_left {M : ℕ} (MR : Mat M 32) (D : Mat M 1) (B : Mat 1 16) (Wl Wr : Mat 16 1) (p : Fin M) :
    midFn MR D B Wl Wr (ix2 p (0 : Fin 2)) = mm (relu (act MR D B)) Wl (ix2 p (0 : Fin 1)) := if_pos rfl

theorem midFn_right {M : ℕ} (MR : Mat M 32) (D : Mat M 1) (B : Mat 1 16) (Wl Wr : Mat 16 1) (p : Fin M) :
    midFn MR D B Wl Wr (ix2 p (1 : Fin 2)) = mm (relu (act MR D B)) Wr (ix2 p (0 : Fin 1)) :=
  if_neg (show ¬ ((1 : Fin 2).val = 0) from by decide)

/-- The vector unit's spelling of the rectified rows: two column slices, the count column broadcast over the
    columns, the bias row over the rows, the maximum with a zero splat. -/
theorem hidden_eq (x0 : Vec Ideal S10000x32 .f32) (x1 : Vec Ideal S10000x1 .f32) (x2 : Vec Ideal S1x16 .f32) :
    maximumf (addf (addf (mulf (extractStridedSlice S10000x16 ![0, 0] x0 slices_S10000x32_o0_0_S10000x16)
        (broadcastTo S10000x16 x1 broadcasts_S10000x1_S10000x16)) (broadcastTo S10000x16 x2 broadcasts_S1x16_S10000x16))
        (extractStridedSlice S10000x16 ![0, 16] x0 slices_S10000x32_o0_16_S10000x16))
      (broadcast S10000x16 (Scalar.ofBits (F := Ideal) .f32 0x00000000#32)) = relu (act x0 x1 x2) := by
  rw [maximumf_splat_zero]
  congr 1
  funext y
  obtain ⟨p, c, rfl⟩ : ∃ (p : Fin 10000) (c : Fin 16), y = ix2 p c := ⟨y 0, y 1, eq_ix2 y⟩
  show (extractStridedSlice S10000x16 ![0, 0] x0 _ (ix2 p c) * broadcastTo S10000x16 x1 _ (ix2 p c)
      + broadcastTo S10000x16 x2 _ (ix2 p c)) + extractStridedSlice S10000x16 ![0, 16] x0 _ (ix2 p c) = _
  rw [extractStridedSlice_apply ![0, 0] x0 _ (ix2 p c) (ix2 p (lo16 c)) (fun a => by
        match a with
        | ⟨0, _⟩ => exact (Nat.zero_add _).symm
        | ⟨1, _⟩ => exact (Nat.zero_add _).symm),
      extractStridedSlice_apply ![0, 16] x0 _ (ix2 p c) (ix2 p (hi16 c)) (fun a => by
        match a with
        | ⟨0, _⟩ => exact (Nat.zero_add _).symm
        | ⟨1, _⟩ => rfl),
      broadcastTo_col_apply x1 _ p c, broadcastTo_1b_ab_apply x2 _ p c]
  rfl

/-- The body's arithmetic on a block is that function of the block. -/
theorem pay_eq (x0 : Vec Ideal S10000x32 .f32) (x1 : Vec Ideal S10000x1 .f32) (x2 : Vec Ideal S1x16 .f32)
    (x3 x4 : Vec Ideal S16x1 .f32) : k1_pay1 (F := Ideal) x0 x1 x2 x3 x4 = midFn x0 x1 x2 x3 x4 := by
  funext y
  obtain ⟨p, q, rfl⟩ : ∃ (p : Fin 10000) (q : Fin 2), y = ix2 p q := ⟨y 0, y 1, eq_ix2 y⟩
  have hq := q.isLt
  unfold k1_pay1
  simp only [shapeCast_self]
  have eh := hidden_eq x0 x1 x2
  have e1 : ∀ h : FVec Ideal S10000x16 .f32, matmul dot_S10000x16_S16x1_S10000x1_1_0_0_1_n_n none (truncf .bf16 h bitsLt_bf16_f32)
      (truncf .bf16 x3 bitsLt_bf16_f32) (constant (F := Ideal) S10000x1 .f32 0x00000000#32) = mm h x3 :=
    fun h => matmul_plain_zero (φ₁ := .bf16) (φ₂ := .bf16) none h x3
  have e2 : ∀ h : FVec Ideal S10000x16 .f32, matmul dot_S10000x16_S16x1_S10000x1_1_0_0_1_n_n none (truncf .bf16 h bitsLt_bf16_f32)
      (truncf .bf16 x4 bitsLt_bf16_f32) (constant (F := Ideal) S10000x1 .f32 0x00000000#32) = mm h x4 :=
    fun h => matmul_plain_zero (φ₁ := .bf16) (φ₂ := .bf16) none h x4
  by_cases h : q.val = 0
  · have hq0 : q = 0 := Fin.ext h
    subst hq0
    rw [midFn_left]
    refine (concatenate_pair_apply_left (s₁ := S10000x1) (s₂ := S10000x1) (1 : Fin 2) _ _ _ (ix2 p (0 : Fin 2)) rfl
      (ix2 p (0 : Fin 1)) (fun b => by match b with | ⟨0, _⟩ => rfl | ⟨1, _⟩ => rfl)).trans ?_
    rw [e1, eh]
  · have hq1 : q = 1 := Fin.ext (by show q.val = 1; omega)
    subst hq1
    rw [midFn_right]
    refine (concatenate_pair_apply_right (s₁ := S10000x1) (s₂ := S10000x1) (1 : Fin 2) _ _ _ (ix2 p (1 : Fin 2)) rfl rfl
      (ix2 p (0 : Fin 1)) (fun b hb => by match b with | ⟨0, _⟩ => rfl | ⟨1, _⟩ => exact absurd rfl hb) rfl).trans ?_
    rw [e2, eh]

/-- On a block of consecutive rows the function reads the whole arrays at those rows. -/
theorem mid_block (x0 : Vec Ideal S10000x32 .f32) (x1 : Vec Ideal S10000x1 .f32) (x2 : Vec Ideal S1x16 .f32)
    (x3 x4 : Vec Ideal S16x1 .f32) (A0 : Mat 100000 32) (A1 : Mat 100000 1) (A2 : Mat 1 16) (A3 A4 : Mat 16 1)
    (y : S10000x2.Idx) (i : S100000x2.Idx)
    (h0 : ∀ k : Fin 32, x0 (ix2 (y 0) k) = A0 (ix2 (i 0) k)) (h1 : x1 (ix2 (y 0) (0 : Fin 1)) = A1 (ix2 (i 0) (0 : Fin 1)))
    (h2 : ∀ c : Fin 16, x2 (ix2 (0 : Fin 1) c) = A2 (ix2 (0 : Fin 1) c))
    (h3 : ∀ c : Fin 16, x3 (ix2 c (0 : Fin 1)) = A3 (ix2 c (0 : Fin 1)))
    (h4 : ∀ c : Fin 16, x4 (ix2 c (0 : Fin 1)) = A4 (ix2 c (0 : Fin 1))) (hq : (y 1 : Fin 2) = (i 1 : Fin 2)) :
    k1_pay1 (F := Ideal) x0 x1 x2 x3 x4 y = midFn A0 A1 A2 A3 A4 i := by
  rw [pay_eq]
  have hh : ∀ c : Fin 16, relu (act x0 x1 x2) (ix2 (y 0) c) = relu (act A0 A1 A2) (ix2 (i 0) c) := fun c => by
    show max ((x0 (ix2 (y 0) (lo16 c)) * x1 (ix2 (y 0) 0) + x2 (ix2 0 c)) + x0 (ix2 (y 0) (hi16 c))) 0
      = max ((A0 (ix2 (i 0) (lo16 c)) * A1 (ix2 (i 0) 0) + A2 (ix2 0 c)) + A0 (ix2 (i 0) (hi16 c))) 0
    rw [h0, h0, h1, h2]
  show (if (y 1 : Fin 2).val = 0 then mm (relu (act x0 x1 x2)) x3 (ix2 (y 0) 0) else mm (relu (act x0 x1 x2)) x4 (ix2 (y 0) 0))
    = (if (i 1 : Fin 2).val = 0 then mm (relu (act A0 A1 A2)) A3 (ix2 (i 0) 0) else mm (relu (act A0 A1 A2)) A4 (ix2 (i 0) 0))
  rw [hq]
  split
  · exact Finset.sum_congr rfl fun k _ => by
      show relu (act x0 x1 x2) (ix2 (y 0) k) * x3 (ix2 k 0) = relu (act A0 A1 A2) (ix2 (i 0) k) * A3 (ix2 k 0)
      rw [hh, h3]
  · exact Finset.sum_congr rfl fun k _ => by
      show relu (act x0 x1 x2) (ix2 (y 0) k) * x4 (ix2 k 0) = relu (act A0 A1 A2) (ix2 (i 0) k) * A4 (ix2 k 0)
      rw [hh, h4]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the walked windows move with the output, the bias and weights stay. -/
theorem idx_facts : ∀ t : Fin cfg1.N, win1_0.index t (0 : Fin 2) = win1_5.index t (0 : Fin 2)
    ∧ win1_0.index t (1 : Fin 2) = 0 ∧ win1_1.index t (0 : Fin 2) = win1_5.index t (0 : Fin 2)
    ∧ win1_1.index t (1 : Fin 2) = 0 ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every block of rows is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- What point t writes back is block t of the whole-array function of the arrays as the region finds them. -/
theorem flushed_eq (c : Dev nD) (t : Fin cfg1.N) :
    (dat1 V c).flushed 5 t = ((cfg1.win 5).blk t).view.read (Elt Ideal)
      (midFn (V c main_v32) (V c main_v12) (V c main_v17) (V c main_v15) (V c main_v16)) := by
  show (cfg1.win 5).cut (grid1.coords t) ((dat1 V c).after 5 t) = _
  rw [after1_5]
  unfold out1_5
  rw [View.canon_unit_zero hz]
  simp only [View.ld_unit_zero (S := S10000x32) hz, View.ld_unit_zero (S := S10000x1) hz, View.ld_unit_zero (S := S1x16) hz,
    View.ld_unit_zero (S := S16x1) hz]
  obtain ⟨e0, e1, e2, e3, e4, e5, e6, e7, e8, e9, e10, e11⟩ := idx_facts t
  funext j
  refine mid_block _ _ _ _ _ _ _ _ _ _ j _ (fun k => ?_) ?_ (fun q => ?_) (fun q => ?_) (fun q => ?_) ?_
  · show V c main_v32 (((cfg1.win 0).blk t).view.emb (ix2 (j 0) k)) = V c main_v32 (ix2 ((((cfg1.win 5).blk t).view.emb j) 0) k)
    refine congrArg _ (funext fun a => Fin.ext ?_)
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 32 + 1 * k.val = k.val; omega
  · show V c main_v12 (((cfg1.win 1).blk t).view.emb (ix2 (j 0) 0)) = V c main_v12 (ix2 ((((cfg1.win 5).blk t).view.emb j) 0) 0)
    refine congrArg _ (funext fun a => Fin.ext ?_)
    match a with
    | ⟨0, _⟩ => show win1_1.index t (0 : Fin 2) * 10000 + 1 * (j 0).val = win1_5.index t (0 : Fin 2) * 10000 + 1 * (j 0).val; omega
    | ⟨1, _⟩ => show win1_1.index t (1 : Fin 2) * 1 + 1 * 0 = 0; omega
  · show V c main_v17 (((cfg1.win 2).blk t).view.emb (ix2 0 q)) = V c main_v17 (ix2 0 q)
    refine congrArg _ (funext fun a => Fin.ext ?_)
    match a with
    | ⟨0, _⟩ => show win1_2.index t (0 : Fin 2) * 1 + 1 * 0 = 0; omega
    | ⟨1, _⟩ => show win1_2.index t (1 : Fin 2) * 16 + 1 * q.val = q.val; omega
  · show V c main_v15 (((cfg1.win 3).blk t).view.emb (ix2 q 0)) = V c main_v15 (ix2 q 0)
    refine congrArg _ (funext fun a => Fin.ext ?_)
    match a with
    | ⟨0, _⟩ => show win1_3.index t (0 : Fin 2) * 16 + 1 * q.val = q.val; omega
    | ⟨1, _⟩ => show win1_3.index t (1 : Fin 2) * 1 + 1 * 0 = 0; omega
  · show V c main_v16 (((cfg1.win 4).blk t).view.emb (ix2 q 0)) = V c main_v16 (ix2 q 0)
    refine congrArg _ (funext fun a => Fin.ext ?_)
    match a with
    | ⟨0, _⟩ => show win1_4.index t (0 : Fin 2) * 16 + 1 * q.val = q.val; omega
    | ⟨1, _⟩ => show win1_4.index t (1 : Fin 2) * 1 + 1 * 0 = 0; omega
  · refine Fin.ext ?_
    show (j 1).val = win1_5.index t (1 : Fin 2) * 2 + 1 * (j 1).val
    omega

/-- An index of the output array is in point t's block iff its row is in the block's range. -/
theorem mem_blk (t : Fin cfg1.N) (i : S100000x2.Idx) :
    i ∈ ((cfg1.win 5).blk t).view.set ↔ ∀ a : Fin 2, win1_5.index t a * S10000x2.size a ≤ (i a).val
      ∧ (i a).val < win1_5.index t a * S10000x2.size a + S10000x2.size a := by
  show i ∈ ((View.whole main_v33).slice (win1_5.rect t)).set ↔ _
  rw [View.set_slice_whole, Rect.mem_set_unit]
  exact Iff.rfl

/-- The ten blocks cover the array. -/
theorem cover (i : S100000x2.Idx) : ∃ t : Fin cfg1.N, (cfg1.win 5).flush t = true ∧ i ∈ ((cfg1.win 5).blk t).view.set := by
  have hi0 : (i 0).val < 100000 := (i 0).isLt
  have hi1 : (i 1).val < 2 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 2 ≤ (i 1).val ∧ (i 1).val < win1_5.index t (1 : Fin 2) * 2 + 2; omega

/-- THE ARRAY AFTER THE REGION: the whole-array function of the arrays as the region finds them. -/
theorem arr (c : Dev nD) :
    (dat1 V c).arrAt 5 cfg1.N = midFn (V c main_v32) (V c main_v12) (V c main_v17) (V c main_v15) (V c main_v16) :=
  (dat1 V c).arrAt_eq_of_cover 5 _ (fun t _ => flushed_eq V c t) cover

end Cert.Sage.Mid

end
-- ==== Proof.RegionPost.lean ====
/-
  The last region: out(j) = (msg(j) · dinv(j) + b) + rlin(j), rows in blocks of 10000.

  The region reads the two-column array [msg | rlin], the column of reciprocal counts and the 1×1 bias, ten
  blocks of 10000 rows, and writes one column. Row p of block t is row 10000·t + p of every array the region
  walks, and the function is row by row, so every block written back is the block of ONE whole-array function;
  the ten blocks cover the 100000 rows, so after the region the output array holds that function.
-/
import proofs.«119981_j14920716386718_2_alg».proof.Proof.Gen.KernelIdeal.Frame
import proofs.«119981_j14920716386718_2_alg».proof.Proof.LibDense
import Idealize.ShloMosaic.Lib.ValueLayout
import Idealize.ShloMosaic.Lib.Pipeline.Value

set_option maxRecDepth 16384

noncomputable section

namespace Cert.Sage.Post

open Cert.Dense Cert.KernelIdeal Cert.KernelIdeal.Gen Idealize.ShloMosaic Idealize.ShloMosaic.TcCoe
open Idealize.ShloMosaic.ValueIdx Idealize.SL.Sem
open Idealize.ShloMosaic.Pipeline (Dat Cfg Window)

/-- Row by row: the first column times the reciprocal count, plus the bias, plus the second column. -/
def postFn {M : ℕ} (MR : Mat M 2) (D : Mat M 1) (B : Mat 1 1) : Mat M 1 :=
  fun i => (MR (ix2 (i 0) (0 : Fin 2)) * D (ix2 (i 0) (0 : Fin 1)) + B (ix2 (0 : Fin 1) (0 : Fin 1)))
    + MR (ix2 (i 0) (1 : Fin 2))

/-- The body's arithmetic on a block is that function of the block. -/
theorem pay_eq (x0 : Vec Ideal S10000x2 .f32) (x1 : Vec Ideal S10000x1 .f32) (x2 : Vec Ideal S1x1 .f32) :
    k2_pay1 (F := Ideal) x0 x1 x2 = postFn x0 x1 x2 := by
  funext y
  obtain ⟨p, z, rfl⟩ : ∃ (p : Fin 10000) (z : Fin 1), y = ix2 p z := ⟨y 0, y 1, eq_ix2 y⟩
  have hz : z.val = 0 := by have := z.isLt; omega
  unfold k2_pay1
  simp only [shapeCast_self]
  show (extractStridedSlice S10000x1 ![0, 0] x0 _ (ix2 p z) * x1 (ix2 p z) + broadcastTo S10000x1 x2 _ (ix2 p z))
      + extractStridedSlice S10000x1 ![0, 1] x0 _ (ix2 p z) = _
  rw [extractStridedSlice_apply ![0, 0] x0 _ (ix2 p z) (ix2 p (0 : Fin 2)) (fun a => by
        match a with
        | ⟨0, _⟩ => exact (Nat.zero_add _).symm
        | ⟨1, _⟩ => show 0 = 0 + z.val; omega),
      extractStridedSlice_apply ![0, 1] x0 _ (ix2 p z) (ix2 p (1 : Fin 2)) (fun a => by
        match a with
        | ⟨0, _⟩ => exact (Nat.zero_add _).symm
        | ⟨1, _⟩ => show 1 = 1 + z.val; omega),
      broadcastTo_apply x2 _ (ix2 p z) (ix2 (0 : Fin 1) (0 : Fin 1)) (fun a => by
        match a with
        | ⟨0, _⟩ => rfl
        | ⟨1, _⟩ => rfl)]
  have e : (ix2 p z : S10000x1.Idx) = ix2 p (0 : Fin 1) := by rw [show z = 0 from Fin.ext hz]
  rw [e]
  rfl

/-- On a block of consecutive rows the function reads the whole arrays at those rows. -/
theorem post_block (x0 : Vec Ideal S10000x2 .f32) (x1 : Vec Ideal S10000x1 .f32) (x2 : Vec Ideal S1x1 .f32)
    (A0 : Mat 100000 2) (A1 : Mat 100000 1) (A2 : Mat 1 1) (y : S10000x1.Idx) (i : S100000x1.Idx)
    (h0 : ∀ q : Fin 2, x0 (ix2 (y 0) q) = A0 (ix2 (i 0) q)) (h1 : x1 (ix2 (y 0) (0 : Fin 1)) = A1 (ix2 (i 0) (0 : Fin 1)))
    (h2 : x2 (ix2 (0 : Fin 1) (0 : Fin 1)) = A2 (ix2 (0 : Fin 1) (0 : Fin 1))) :
    k2_pay1 (F := Ideal) x0 x1 x2 y = postFn A0 A1 A2 i := by
  rw [pay_eq]
  show (x0 (ix2 (y 0) 0) * x1 (ix2 (y 0) 0) + x2 (ix2 0 0)) + x0 (ix2 (y 0) 1) = (A0 (ix2 (i 0) 0) * A1 (ix2 (i 0) 0) + A2 (ix2 0 0)) + A0 (ix2 (i 0) 1)
  rw [h0, h0, h1, h2]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the walked windows move with the output, the bias stays. -/
theorem idx_facts : ∀ t : Fin cfg2.N, win2_0.index t (0 : Fin 2) = win2_3.index t (0 : Fin 2)
    ∧ win2_0.index t (1 : Fin 2) = 0 ∧ win2_1.index t (0 : Fin 2) = win2_3.index t (0 : Fin 2)
    ∧ win2_1.index t (1 : Fin 2) = 0 ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every block of rows is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- What point t writes back is block t of the whole-array function of the arrays as the region finds them. -/
theorem flushed_eq (c : Dev nD) (t : Fin cfg2.N) :
    (dat2 V c).flushed 3 t = ((cfg2.win 3).blk t).view.read (Elt Ideal)
      (postFn (V c main_v46) (V c main_v12) (V c main_v18)) := by
  show (cfg2.win 3).cut (grid2.coords t) ((dat2 V c).after 3 t) = _
  rw [after2_3]
  unfold out2_3
  rw [View.canon_unit_zero hz]
  simp only [View.ld_unit_zero (S := S10000x2) hz, View.ld_unit_zero (S := S10000x1) hz, View.ld_unit_zero (S := S1x1) hz]
  obtain ⟨e0, e1, e2, e3, e4, e5, e6, e7⟩ := idx_facts t
  funext j
  refine post_block _ _ _ _ _ _ j _ (fun q => ?_) ?_ ?_
  · show V c main_v46 (((cfg2.win 0).blk t).view.emb (ix2 (j 0) q)) = V c main_v46 (ix2 ((((cfg2.win 3).blk t).view.emb j) 0) q)
    refine congrArg _ (funext fun a => Fin.ext ?_)
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 2 + 1 * q.val = q.val; omega
  · show V c main_v12 (((cfg2.win 1).blk t).view.emb (ix2 (j 0) 0)) = V c main_v12 (ix2 ((((cfg2.win 3).blk t).view.emb j) 0) 0)
    refine congrArg _ (funext fun a => Fin.ext ?_)
    match a with
    | ⟨0, _⟩ => show win2_1.index t (0 : Fin 2) * 10000 + 1 * (j 0).val = win2_3.index t (0 : Fin 2) * 10000 + 1 * (j 0).val; omega
    | ⟨1, _⟩ => show win2_1.index t (1 : Fin 2) * 1 + 1 * 0 = 0; omega
  · show V c main_v18 (((cfg2.win 2).blk t).view.emb (ix2 0 0)) = V c main_v18 (ix2 0 0)
    refine congrArg _ (funext fun a => Fin.ext ?_)
    match a with
    | ⟨0, _⟩ => show win2_2.index t (0 : Fin 2) * 1 + 1 * 0 = 0; omega
    | ⟨1, _⟩ => show win2_2.index t (1 : Fin 2) * 1 + 1 * 0 = 0; omega

/-- An index of the output array is in point t's block iff its row is in the block's range. -/
theorem mem_blk (t : Fin cfg2.N) (i : S100000x1.Idx) :
    i ∈ ((cfg2.win 3).blk t).view.set ↔ ∀ a : Fin 2, win2_3.index t a * S10000x1.size a ≤ (i a).val
      ∧ (i a).val < win2_3.index t a * S10000x1.size a + S10000x1.size a := by
  show i ∈ ((View.whole main_v47).slice (win2_3.rect t)).set ↔ _
  rw [View.set_slice_whole, Rect.mem_set_unit]
  exact Iff.rfl

/-- The ten blocks cover the array. -/
theorem cover (i : S100000x1.Idx) : ∃ t : Fin cfg2.N, (cfg2.win 3).flush t = true ∧ i ∈ ((cfg2.win 3).blk t).view.set := by
  have hi0 : (i 0).val < 100000 := (i 0).isLt
  have hi1 : (i 1).val < 1 := (i 1).isLt
  obtain ⟨t, ht⟩ := idx_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 1 ≤ (i 1).val ∧ (i 1).val < win2_3.index t (1 : Fin 2) * 1 + 1; omega

/-- THE ARRAY AFTER THE REGION: the whole-array function of the arrays as the region finds them. -/
theorem arr (c : Dev nD) :
    (dat2 V c).arrAt 3 cfg2.N = postFn (V c main_v46) (V c main_v12) (V c main_v18) :=
  (dat2 V c).arrAt_eq_of_cover 3 _ (fun t _ => flushed_eq V c t) cover

end Cert.Sage.Post

end
-- ==== Proof.KernelFold.lean ====
/-
  The contents of the result buffer at the last boundary, as one function of the argument arrays.

  Between the regions the program takes, with host operations: the two rows of the edge array as the source and
  destination vectors; the reciprocal of the clipped count of messages per destination; the weight matrices
  transposed; and, after each of the first two regions, the segment sum over destinations of the rows the source
  vector names in the left half of the region's result, laid beside the right half. Each region leaves in its
  output array the whole-array function of the arrays it found (the three region modules). Reading the result
  buffer back through the seven boundaries gives one nested term of the arguments.
-/
import proofs.«119981_j14920716386718_2_alg».proof.Proof.RegionPre
import proofs.«119981_j14920716386718_2_alg».proof.Proof.RegionMid
import proofs.«119981_j14920716386718_2_alg».proof.Proof.RegionPost
import Idealize.ShloMosaic.Lib.StableHlo.Run

set_option maxRecDepth 16384

noncomputable section

namespace Cert.Sage.Fold

open Cert.Dense Cert.KernelIdeal Cert.KernelIdeal.Gen Idealize.ShloMosaic Idealize.ShloMosaic.TcCoe
open Idealize.ShloMosaic.ValueIdx Idealize.SL.Sem Idealize.ShloMosaic.StableHlo
open Cert.Sage.Pre Cert.Sage.Mid Cert.Sage.Post

/-! ## The host operations' terms, named -/

/-- The source vector: row 0 of the edge array. -/
def srcv (a1 : IVec S2x3200000 32) : IVec S3200000 32 :=
  shapeCast S3200000 (extractStridedSlice S1x3200000 ![0, 0] a1 slices_S2x3200000_S1x3200000_0_0) shapeCasts_S1x3200000_S3200000

/-- The destination vector: row 1 of the edge array. -/
def dstv (a1 : IVec S2x3200000 32) : IVec S3200000 32 :=
  shapeCast S3200000 (extractStridedSlice S1x3200000 ![1, 0] a1 slices_S2x3200000_S1x3200000_1_0) shapeCasts_S1x3200000_S3200000

/-- The column of indices rows are taken by: the source vector, a negative entry moved up by the row count. -/
def gcol (a1 : IVec S2x3200000 32) : IVec S3200000x1 32 :=
  broadcastInDim S3200000x1 ![0] bcast_S3200000_S3200000x1_0
    (select (cmpi .slt (srcv a1) (broadcastInDim S3200000 ![] bcast_S_S3200000 (constantI S_ 32 0#32)))
      (addi (srcv a1) (broadcastInDim S3200000 ![] bcast_S_S3200000 (constantI S_ 32 100000#32))) (srcv a1))

/-- The column of indices rows are added at: the destination vector. -/
def scol (a1 : IVec S2x3200000 32) : IVec S3200000x1 32 :=
  broadcastInDim S3200000x1 ![0] bcast_S3200000_S3200000x1_0 (dstv a1)

/-- The reciprocal of the count of messages per destination, the count clipped below at one. -/
def dvec (a1 : IVec S2x3200000 32) : FVec Ideal S100000 .f32 :=
  Host.divf (F := Ideal) (broadcastInDim S100000 ![] bcast_S_S100000 (constant (F := Ideal) S_ .f32 0x3F800000#32))
    (maximumf
      (Host.scatterAdd (F := Ideal) scatter_S100000_S3200000x1_S3200000_n_0_0_1
        (broadcastInDim S100000 ![] bcast_S_S100000 (constant (F := Ideal) S_ .f32 0x00000000#32)) (scol a1)
        (broadcastInDim S3200000 ![] bcast_S_S3200000 (constant (F := Ideal) S_ .f32 0x3F800000#32)))
      (broadcastInDim S100000 ![] bcast_S_S100000 (constant (F := Ideal) S_ .f32 0x3F800000#32)))

/-- The same as a column. -/
def dcol (a1 : IVec S2x3200000 32) : FVec Ideal S100000x1 .f32 := shapeCast S100000x1 (dvec a1) shapeCasts_S100000_S100000x1

/-- The segment sum over destinations of the 16-column rows the sources name. -/
def agg16 (a1 : IVec S2x3200000 32) (P : FVec Ideal S100000x16 .f32) : FVec Ideal S100000x16 .f32 :=
  Host.scatterAdd (F := Ideal) scatter_S100000x16_S3200000x1_S3200000x16_1_0_0_1
    (broadcastInDim S100000x16 ![] bcast_S_S100000x16 (constant (F := Ideal) S_ .f32 0x00000000#32)) (scol a1)
    (Host.gather gather_S100000x16_S3200000x1_S3200000x16_1_0_n_n_0_1_116 P (gcol a1))

/-- The segment sum over destinations of the one-column rows the sources name. -/
def agg1 (a1 : IVec S2x3200000 32) (P : FVec Ideal S100000x1 .f32) : FVec Ideal S100000x1 .f32 :=
  Host.scatterAdd (F := Ideal) scatter_S100000x1_S3200000x1_S3200000x1_1_0_0_1
    (broadcastInDim S100000x1 ![] bcast_S_S100000x1 (constant (F := Ideal) S_ .f32 0x00000000#32)) (scol a1)
    (Host.gather gather_S100000x1_S3200000x1_S3200000x1_1_0_n_n_0_1_11 P (gcol a1))

/-- After the first region: [x·Wl1ᵀ | x·Wr1ᵀ]. -/
def stage1 (a0 : FVec Ideal S100000x32 .f32) (a2 a3 : FVec Ideal S16x32 .f32) : FVec Ideal S100000x32 .f32 :=
  preFn a0 (transpose S32x16 [1, 0] a2 transposes_S16x32_S32x16_1_0) (transpose S32x16 [1, 0] a3 transposes_S16x32_S32x16_1_0)

/-- What the middle region reads: the segment sum of the left half beside the right half. -/
def mr1 (a0 : FVec Ideal S100000x32 .f32) (a1 : IVec S2x3200000 32) (a2 a3 : FVec Ideal S16x32 .f32) : FVec Ideal S100000x32 .f32 :=
  concatenate S100000x32 1
    [⟨S100000x16, agg16 a1 (extractStridedSlice S100000x16 ![0, 0] (stage1 a0 a2 a3) slices_S100000x32_S100000x16_0_0)⟩,
     ⟨S100000x16, extractStridedSlice S100000x16 ![0, 16] (stage1 a0 a2 a3) slices_S100000x32_S100000x16_0_16⟩]
    concatenates_S100000x16_S100000x16_S100000x32_d1

/-- After the middle region. -/
def stage2 (a0 : FVec Ideal S100000x32 .f32) (a1 : IVec S2x3200000 32) (a2 a3 : FVec Ideal S16x32 .f32) (a4 : FVec Ideal S16 .f32)
    (a5 a6 : FVec Ideal S1x16 .f32) : FVec Ideal S100000x2 .f32 :=
  midFn (mr1 a0 a1 a2 a3) (dcol a1) (shapeCast S1x16 a4 shapeCasts_S16_S1x16)
    (transpose S16x1 [1, 0] a5 transposes_S1x16_S16x1_1_0) (transpose S16x1 [1, 0] a6 transposes_S1x16_S16x1_1_0)

/-- What the last region reads. -/
def mr2 (a0 : FVec Ideal S100000x32 .f32) (a1 : IVec S2x3200000 32) (a2 a3 : FVec Ideal S16x32 .f32) (a4 : FVec Ideal S16 .f32)
    (a5 a6 : FVec Ideal S1x16 .f32) : FVec Ideal S100000x2 .f32 :=
  concatenate S100000x2 1
    [⟨S100000x1, agg1 a1 (extractStridedSlice S100000x1 ![0, 0] (stage2 a0 a1 a2 a3 a4 a5 a6) slices_S100000x2_S100000x1_0_0)⟩,
     ⟨S100000x1, extractStridedSlice S100000x1 ![0, 1] (stage2 a0 a1 a2 a3 a4 a5 a6) slices_S100000x2_S100000x1_0_1⟩]
    concatenates_S100000x1_S100000x1_S100000x2_d1

/-- After the last region, as a column. -/
def outCol (a0 : FVec Ideal S100000x32 .f32) (a1 : IVec S2x3200000 32) (a2 a3 : FVec Ideal S16x32 .f32) (a4 : FVec Ideal S16 .f32)
    (a5 a6 : FVec Ideal S1x16 .f32) (a7 : FVec Ideal S1 .f32) : FVec Ideal S100000x1 .f32 :=
  postFn (mr2 a0 a1 a2 a3 a4 a5 a6) (dcol a1) (shapeCast S1x1 a7 shapeCasts_S1_S1x1)

/-! ## The boundaries, one buffer at a time -/

variable (m : (ℓ : Loc nD τ sig) → Buf (Elt Ideal) ℓ) (ρ : Dev nD → PrngReg) (c : Dev nD)

theorem w1_arg0 : W1 m ρ c (Proc.devRef .tc main_arg0) = (m ((c : Thread nD τ).loc main_arg0)) := by
  show StableHlo.after hostOps0 (W0 m ρ c) (Proc.devRef .tc main_arg0) = _
  after_results_simp <;> rfl
theorem w1_v1 : W1 m ρ c (Proc.devRef .tc main_v1) = srcv (m ((c : Thread nD τ).loc main_arg1)) := by
  show StableHlo.after hostOps0 (W0 m ρ c) (Proc.devRef .tc main_v1) = _
  after_results_simp <;> rfl
theorem w1_v3 : W1 m ρ c (Proc.devRef .tc main_v3) = dstv (m ((c : Thread nD τ).loc main_arg1)) := by
  show StableHlo.after hostOps0 (W0 m ρ c) (Proc.devRef .tc main_v3) = _
  after_results_simp <;> rfl
theorem w1_v12 : W1 m ρ c (Proc.devRef .tc main_v12) = dcol (m ((c : Thread nD τ).loc main_arg1)) := by
  show StableHlo.after hostOps0 (W0 m ρ c) (Proc.devRef .tc main_v12) = _
  after_results_simp
  unfold dcol dvec scol dstv
  rfl
theorem w1_v13 : W1 m ρ c (Proc.devRef .tc main_v13) = transpose S32x16 [1, 0] (m ((c : Thread nD τ).loc main_arg2)) transposes_S16x32_S32x16_1_0 := by
  show StableHlo.after hostOps0 (W0 m ρ c) (Proc.devRef .tc main_v13) = _
  after_results_simp <;> rfl
theorem w1_v14 : W1 m ρ c (Proc.devRef .tc main_v14) = transpose S32x16 [1, 0] (m ((c : Thread nD τ).loc main_arg3)) transposes_S16x32_S32x16_1_0 := by
  show StableHlo.after hostOps0 (W0 m ρ c) (Proc.devRef .tc main_v14) = _
  after_results_simp <;> rfl
theorem w1_v15 : W1 m ρ c (Proc.devRef .tc main_v15) = transpose S16x1 [1, 0] (m ((c : Thread nD τ).loc main_arg5)) transposes_S1x16_S16x1_1_0 := by
  show StableHlo.after hostOps0 (W0 m ρ c) (Proc.devRef .tc main_v15) = _
  after_results_simp <;> rfl
theorem w1_v16 : W1 m ρ c (Proc.devRef .tc main_v16) = transpose S16x1 [1, 0] (m ((c : Thread nD τ).loc main_arg6)) transposes_S1x16_S16x1_1_0 := by
  show StableHlo.after hostOps0 (W0 m ρ c) (Proc.devRef .tc main_v16) = _
  after_results_simp <;> rfl
theorem w1_v17 : W1 m ρ c (Proc.devRef .tc main_v17) = shapeCast S1x16 (m ((c : Thread nD τ).loc main_arg4)) shapeCasts_S16_S1x16 := by
  show StableHlo.after hostOps0 (W0 m ρ c) (Proc.devRef .tc main_v17) = _
  after_results_simp <;> rfl
theorem w1_v18 : W1 m ρ c (Proc.devRef .tc main_v18) = shapeCast S1x1 (m ((c : Thread nD τ).loc main_arg7)) shapeCasts_S1_S1x1 := by
  show StableHlo.after hostOps0 (W0 m ρ c) (Proc.devRef .tc main_v18) = _
  after_results_simp <;> rfl

/-! ### After the first region -/

theorem w2_v19 : W2 m ρ c (Proc.devRef .tc main_v19) = stage1 (m ((c : Thread nD τ).loc main_arg0)) (m ((c : Thread nD τ).loc main_arg2)) (m ((c : Thread nD τ).loc main_arg3)) :=
  (W2_arr m ρ c 3).trans ((Pre.arr (V1 m ρ) c).trans (by
    show preFn (W1 m ρ c (Proc.devRef .tc main_arg0)) (W1 m ρ c (Proc.devRef .tc main_v13)) (W1 m ρ c (Proc.devRef .tc main_v14)) = _
    rw [w1_arg0, w1_v13, w1_v14]; rfl))
theorem w2_v1 : W2 m ρ c (Proc.devRef .tc main_v1) = srcv (m ((c : Thread nD τ).loc main_arg1)) :=
  (W2_of_ne m ρ c main_v1 (by decide)).trans (w1_v1 m ρ c)
theorem w2_v3 : W2 m ρ c (Proc.devRef .tc main_v3) = dstv (m ((c : Thread nD τ).loc main_arg1)) :=
  (W2_of_ne m ρ c main_v3 (by decide)).trans (w1_v3 m ρ c)
theorem w2_v12 : W2 m ρ c (Proc.devRef .tc main_v12) = dcol (m ((c : Thread nD τ).loc main_arg1)) :=
  (W2_of_ne m ρ c main_v12 (by decide)).trans (w1_v12 m ρ c)
theorem w2_v15 : W2 m ρ c (Proc.devRef .tc main_v15) = transpose S16x1 [1, 0] (m ((c : Thread nD τ).loc main_arg5)) transposes_S1x16_S16x1_1_0 :=
  (W2_of_ne m ρ c main_v15 (by decide)).trans (w1_v15 m ρ c)
theorem w2_v16 : W2 m ρ c (Proc.devRef .tc main_v16) = transpose S16x1 [1, 0] (m ((c : Thread nD τ).loc main_arg6)) transposes_S1x16_S16x1_1_0 :=
  (W2_of_ne m ρ c main_v16 (by decide)).trans (w1_v16 m ρ c)
theorem w2_v17 : W2 m ρ c (Proc.devRef .tc main_v17) = shapeCast S1x16 (m ((c : Thread nD τ).loc main_arg4)) shapeCasts_S16_S1x16 :=
  (W2_of_ne m ρ c main_v17 (by decide)).trans (w1_v17 m ρ c)
theorem w2_v18 : W2 m ρ c (Proc.devRef .tc main_v18) = shapeCast S1x1 (m ((c : Thread nD τ).loc main_arg7)) shapeCasts_S1_S1x1 :=
  (W2_of_ne m ρ c main_v18 (by decide)).trans (w1_v18 m ρ c)

/-! ### Before the middle region -/

set_option maxHeartbeats 4000000 in
theorem w3_v32 : W3 m ρ c (Proc.devRef .tc main_v32) = mr1 (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v32) = _
  after_results
  rw [w2_v19, w2_v1, w2_v3]
  rfl
theorem w3_v1 : W3 m ρ c (Proc.devRef .tc main_v1) = srcv (m ((c : Thread nD τ).loc main_arg1)) := by
  show StableHlo.after hostOps1 (W2 m ρ c) (Proc.devRef .tc main_v1) = _
  after_results_simp
  exact w2_v1 m ρ c
theorem w3_v3 : W3 m ρ c (Proc.devRef .tc main_v3) = dstv (m ((c : Thread nD τ).loc main_arg1)) := by
  show StableHlo.after hostOps1 (W2 m ρ c) (Proc.devRef .tc main_v3) = _
  after_results_simp
  exact w2_v3 m ρ c
theorem w3_v12 : W3 m ρ c (Proc.devRef .tc main_v12) = dcol (m ((c : Thread nD τ).loc main_arg1)) := by
  show StableHlo.after hostOps1 (W2 m ρ c) (Proc.devRef .tc main_v12) = _
  after_results_simp
  exact w2_v12 m ρ c
theorem w3_v15 : W3 m ρ c (Proc.devRef .tc main_v15) = transpose S16x1 [1, 0] (m ((c : Thread nD τ).loc main_arg5)) transposes_S1x16_S16x1_1_0 := by
  show StableHlo.after hostOps1 (W2 m ρ c) (Proc.devRef .tc main_v15) = _
  after_results_simp
  exact w2_v15 m ρ c
theorem w3_v16 : W3 m ρ c (Proc.devRef .tc main_v16) = transpose S16x1 [1, 0] (m ((c : Thread nD τ).loc main_arg6)) transposes_S1x16_S16x1_1_0 := by
  show StableHlo.after hostOps1 (W2 m ρ c) (Proc.devRef .tc main_v16) = _
  after_results_simp
  exact w2_v16 m ρ c
theorem w3_v17 : W3 m ρ c (Proc.devRef .tc main_v17) = shapeCast S1x16 (m ((c : Thread nD τ).loc main_arg4)) shapeCasts_S16_S1x16 := by
  show StableHlo.after hostOps1 (W2 m ρ c) (Proc.devRef .tc main_v17) = _
  after_results_simp
  exact w2_v17 m ρ c
theorem w3_v18 : W3 m ρ c (Proc.devRef .tc main_v18) = shapeCast S1x1 (m ((c : Thread nD τ).loc main_arg7)) shapeCasts_S1_S1x1 := by
  show StableHlo.after hostOps1 (W2 m ρ c) (Proc.devRef .tc main_v18) = _
  after_results_simp
  exact w2_v18 m ρ c

/-! ### After the middle region -/

theorem w4_v33 : W4 m ρ c (Proc.devRef .tc main_v33)
    = stage2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_arr m ρ c 5).trans ((Mid.arr (V3 m ρ) c).trans (by
    show midFn (W3 m ρ c (Proc.devRef .tc main_v32)) (W3 m ρ c (Proc.devRef .tc main_v12)) (W3 m ρ c (Proc.devRef .tc main_v17))
      (W3 m ρ c (Proc.devRef .tc main_v15)) (W3 m ρ c (Proc.devRef .tc main_v16)) = _
    rw [w3_v32, w3_v12, w3_v17, w3_v15, w3_v16]; rfl))
theorem w4_v1 : W4 m ρ c (Proc.devRef .tc main_v1) = srcv (m ((c : Thread nD τ).loc main_arg1)) :=
  (W4_of_ne m ρ c main_v1 (by decide)).trans (w3_v1 m ρ c)
theorem w4_v3 : W4 m ρ c (Proc.devRef .tc main_v3) = dstv (m ((c : Thread nD τ).loc main_arg1)) :=
  (W4_of_ne m ρ c main_v3 (by decide)).trans (w3_v3 m ρ c)
theorem w4_v12 : W4 m ρ c (Proc.devRef .tc main_v12) = dcol (m ((c : Thread nD τ).loc main_arg1)) :=
  ((W4_arr m ρ c 1).trans (((dat1 (V3 m ρ) c).arrAt_in 1 rfl _).trans (A_eq1 (V3 m ρ) c 1))).trans (w3_v12 m ρ c)
theorem w4_v18 : W4 m ρ c (Proc.devRef .tc main_v18) = shapeCast S1x1 (m ((c : Thread nD τ).loc main_arg7)) shapeCasts_S1_S1x1 :=
  (W4_of_ne m ρ c main_v18 (by decide)).trans (w3_v18 m ρ c)

/-! ### Before the last region -/

set_option maxHeartbeats 4000000 in
theorem w5_v46 : W5 m ρ c (Proc.devRef .tc main_v46)
    = mr2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v46) = _
  after_results
  rw [w4_v33, w4_v1, w4_v3]
  rfl
theorem w5_v12 : W5 m ρ c (Proc.devRef .tc main_v12) = dcol (m ((c : Thread nD τ).loc main_arg1)) := by
  show StableHlo.after hostOps2 (W4 m ρ c) (Proc.devRef .tc main_v12) = _
  after_results_simp
  exact w4_v12 m ρ c
theorem w5_v18 : W5 m ρ c (Proc.devRef .tc main_v18) = shapeCast S1x1 (m ((c : Thread nD τ).loc main_arg7)) shapeCasts_S1_S1x1 := by
  show StableHlo.after hostOps2 (W4 m ρ c) (Proc.devRef .tc main_v18) = _
  after_results_simp
  exact w4_v18 m ρ c

/-! ### After the last region, and the result -/

theorem w6_v47 : W6 m ρ c (Proc.devRef .tc main_v47)
    = outCol (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W6_arr m ρ c 3).trans ((Post.arr (V5 m ρ) c).trans (by
    show postFn (W5 m ρ c (Proc.devRef .tc main_v46)) (W5 m ρ c (Proc.devRef .tc main_v12)) (W5 m ρ c (Proc.devRef .tc main_v18)) = _
    rw [w5_v46, w5_v12, w5_v18]; rfl))

/-- THE RESULT BUFFER at the last boundary: the output column of the argument arrays, as a vector. -/
theorem result_eq : W7 m ρ c (Proc.devRef .tc main_v48)
    = shapeCast S100000 (outCol (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7))) shapeCasts_S100000x1_S100000 := by
  show StableHlo.after hostOps3 (W6 m ρ c) (Proc.devRef .tc main_v48) = _
  after_results
  rw [w6_v47]
  rfl

end Cert.Sage.Fold

end
-- ==== Proof.LibSageOrder.lean ====
/-
  Two layers of mean-aggregating graph convolution on the extended reals, in two orders of operations.

  A graph on N nodes has E messages; message e is taken from node s(e) and lands on node j when e ∈ L(j). A layer
  sends a matrix X of node features to  (Σ_{e ∈ L(j)} X(s e, ·)) · d(j) · Wl + b + X(j, ·) · Wr,  d(j) the
  reciprocal of the number of messages landing on j. One order multiplies by Wl first, on every node, and then
  sums the products over the landing messages and scales the sum by d(j) (`convK`); the other sums the features,
  scales the sum, and multiplies by Wl last (`convR`). The two agree when the features, Wl and d are real numbers:
  a real factor distributes over a finite sum of reals and two finite sums exchange. On the extended reals that
  fails at the infinities, so realness is asked where it is used and nowhere else (nothing is asked of Wr or of
  the bias for one layer). Two layers with a rectifier between them agree when in addition the first layer's
  result is real, which its bias and Wr being real gives.
-/
import proofs.«119981_j14920716386718_2_alg».proof.Proof.LibGraphConv

noncomputable section

open scoped BigOperators

namespace Cert.Sage

open Cert.Dense Cert.Gcn Cert.GraphConv Cert.Indexed Idealize.ShloMosaic Idealize.ShloMosaic.ValueIdx

variable {N E K C : ℕ}

/-- The messages that land on node j: those whose entry of the index column, read signed, is j. -/
def landing (si : IVec ⟨2, ![E, 1]⟩ 32) (j : Fin N) : Finset (Fin E) :=
  Finset.univ.filter fun r : Fin E => Names (si (ix2 r (0 : Fin 1))) j

/-- The node message e is taken from: its entry of the index column, read signed and clamped into the rows. -/
def source (hN : 0 < N) (gi : IVec ⟨2, ![E, 1]⟩ 32) (e : Fin E) : Fin N := clampRow N hN (gi (ix2 e (0 : Fin 1)))

/-! ## The law in the reals, and on the extended reals for real entries -/

/-- Summing products over messages and scaling the total is scaling each column's sum and multiplying after. -/
theorem seg_mm_real {ι : Type} (L : Finset ι) (f : ι → Fin K → ℝ) (w : Fin K → ℝ) (d : ℝ) :
    (∑ e ∈ L, ∑ k : Fin K, f e k * w k) * d = ∑ k : Fin K, ((∑ e ∈ L, f e k) * d) * w k := by
  simp_rw [Finset.sum_mul]
  rw [Finset.sum_comm]
  exact Finset.sum_congr rfl fun k _ => Finset.sum_congr rfl fun e _ => by ring

/-- The same on the extended reals when every entry is a real number. -/
theorem seg_mm {ι : Type} (L : Finset ι) (f : ι → Fin K → EReal) (w : Fin K → EReal) (d : EReal)
    (hf : ∀ e k, IsReal (f e k)) (hw : ∀ k, IsReal (w k)) (hd : IsReal d) :
    (∑ e ∈ L, ∑ k : Fin K, f e k * w k) * d = ∑ k : Fin K, ((∑ e ∈ L, f e k) * d) * w k := by
  choose f' hf' using hf
  choose w' hw' using hw
  obtain ⟨d', rfl⟩ := hd
  simp only [hf', hw', ← EReal.coe_mul, ← coe_sum]
  exact congrArg _ (seg_mm_real L f' w' d')

/-! ## A layer in the two orders -/

section Layers

variable (L : Fin N → Finset (Fin E)) (s : Fin E → Fin N) (d : Fin N → EReal)

/-- The segment sum of taken rows: entry (j, k) is the sum over the messages landing on j of H(s e, k). -/
def seg (H : Mat N K) : Mat N K := fun i => ∑ e ∈ L (i 0), H (ix2 (s e) (i 1))

/-- A layer, the product with Wl taken first. -/
def convK (X : Mat N K) (Wl Wr : Mat K C) (b : Fin C → EReal) : Mat N C :=
  fun i => (seg L s (mm X Wl) i * d (i 0) + b (i 1)) + mm X Wr i

/-- A layer, the product with Wl taken last. -/
def convR (X : Mat N K) (Wl Wr : Mat K C) (b : Fin C → EReal) : Mat N C :=
  fun i => (mm (fun j => seg L s X j * d (j 0)) Wl i + b (i 1)) + mm X Wr i

/-- One layer: the two orders agree for real features, real Wl and real d. -/
theorem conv_eq (X : Mat N K) (Wl Wr : Mat K C) (b : Fin C → EReal) (hX : Finite X) (hWl : Finite Wl)
    (hd : ∀ j, IsReal (d j)) : convK L s d X Wl Wr b = convR L s d X Wl Wr b := by
  funext i
  obtain ⟨p, c, rfl⟩ : ∃ (p : Fin N) (c : Fin C), i = ix2 p c := ⟨i 0, i 1, eq_ix2 i⟩
  show ((∑ e ∈ L p, ∑ k : Fin K, X (ix2 (s e) k) * Wl (ix2 k c)) * d p + b c) + mm X Wr (ix2 p c)
    = ((∑ k : Fin K, ((∑ e ∈ L p, X (ix2 (s e) k)) * d p) * Wl (ix2 k c)) + b c) + mm X Wr (ix2 p c)
  rw [seg_mm (L p) (fun e k => X (ix2 (s e) k)) (fun k => Wl (ix2 k c)) (d p) (fun e k => hX _) (fun k => hWl _) (hd p)]

/-- A real layer: real features, weights, bias and d give real entries. -/
theorem finite_convK (X : Mat N K) (Wl Wr : Mat K C) (b : Fin C → EReal) (hX : Finite X) (hWl : Finite Wl)
    (hWr : Finite Wr) (hb : ∀ c, IsReal (b c)) (hd : ∀ j, IsReal (d j)) : Finite (convK L s d X Wl Wr b) :=
  fun i => IsReal.add (IsReal.add (IsReal.mul (IsReal.sum _ _ fun e _ => finite_mm hX hWl _) (hd _)) (hb _))
    (finite_mm hX hWr i)

/-- Two layers with the rectifier between, the products taken first. -/
def netK (X : Mat N K) (Wl1 Wr1 : Mat K C) (b1 : Fin C → EReal) (Wl2 Wr2 : Mat C 1) (b2 : Fin 1 → EReal) : Mat N 1 :=
  convK L s d (relu (convK L s d X Wl1 Wr1 b1)) Wl2 Wr2 b2

/-- Two layers with the rectifier between, the products taken last. -/
def netR (X : Mat N K) (Wl1 Wr1 : Mat K C) (b1 : Fin C → EReal) (Wl2 Wr2 : Mat C 1) (b2 : Fin 1 → EReal) : Mat N 1 :=
  convR L s d (relu (convR L s d X Wl1 Wr1 b1)) Wl2 Wr2 b2

/-- Two layers: the two orders agree for real features, first-layer weights and bias, real Wl of the second
    layer and real d (nothing is asked of the second layer's Wr and bias). -/
theorem net_eq (X : Mat N K) (Wl1 Wr1 : Mat K C) (b1 : Fin C → EReal) (Wl2 Wr2 : Mat C 1) (b2 : Fin 1 → EReal)
    (hX : Finite X) (hWl1 : Finite Wl1) (hWr1 : Finite Wr1) (hb1 : ∀ c, IsReal (b1 c)) (hWl2 : Finite Wl2)
    (hd : ∀ j, IsReal (d j)) :
    netK L s d X Wl1 Wr1 b1 Wl2 Wr2 b2 = netR L s d X Wl1 Wr1 b1 Wl2 Wr2 b2 := by
  unfold netK netR
  rw [conv_eq L s d (relu (convK L s d X Wl1 Wr1 b1)) Wl2 Wr2 b2
    (finite_relu (finite_convK L s d X Wl1 Wr1 b1 hX hWl1 hWr1 hb1 hd)) hWl2 hd,
    conv_eq L s d X Wl1 Wr1 b1 hX hWl1 hd]

end Layers

/-! ## The network over the arrays as a program receives them -/

/-- A matrix transposed. -/
def tr {a b : ℕ} (W : Mat a b) : Mat b a := fun i => W (ix2 (i 1) (i 0))

theorem finite_tr {a b : ℕ} {W : Mat a b} (h : Finite W) : Finite (tr W) := fun _ => h _

/-- The two-layer network, products first, from the index columns (`si` names where a message lands, `gi` where it
    is taken from), the vector of reciprocal counts, the features, each layer's weight matrices stored transposed
    and its bias vector. -/
def sageK (hN : 0 < N) (si gi : IVec ⟨2, ![E, 1]⟩ 32) (dv : Row N) (X : Mat N K) (W1l W1r : Mat C K) (b1 : Row C)
    (W2l W2r : Mat 1 C) (b2 : Row 1) : Mat N 1 :=
  netK (landing si) (source hN gi) (fun j => dv (ix1 j)) X (tr W1l) (tr W1r) (fun c => b1 (ix1 c)) (tr W2l) (tr W2r)
    (fun _ => b2 (ix1 (0 : Fin 1)))

/-- The same network, products last. -/
def sageR (hN : 0 < N) (si gi : IVec ⟨2, ![E, 1]⟩ 32) (dv : Row N) (X : Mat N K) (W1l W1r : Mat C K) (b1 : Row C)
    (W2l W2r : Mat 1 C) (b2 : Row 1) : Mat N 1 :=
  netR (landing si) (source hN gi) (fun j => dv (ix1 j)) X (tr W1l) (tr W1r) (fun c => b1 (ix1 c)) (tr W2l) (tr W2r)
    (fun _ => b2 (ix1 (0 : Fin 1)))

/-- The two agree when the features, the first layer's weights and bias, the second layer's left weights and the
    reciprocal counts are real. -/
theorem sage_eq (hN : 0 < N) (si gi : IVec ⟨2, ![E, 1]⟩ 32) (dv : Row N) (X : Mat N K) (W1l W1r : Mat C K) (b1 : Row C)
    (W2l W2r : Mat 1 C) (b2 : Row 1) (hX : Finite X) (hW1l : Finite W1l) (hW1r : Finite W1r) (hb1 : Finite b1)
    (hW2l : Finite W2l) (hd : Finite dv) :
    sageK hN si gi dv X W1l W1r b1 W2l W2r b2 = sageR hN si gi dv X W1l W1r b1 W2l W2r b2 :=
  net_eq _ _ _ X _ _ _ _ _ _ hX (finite_tr hW1l) (finite_tr hW1r) (fun c => hb1 _) (finite_tr hW2l) (fun j => hd _)

end Cert.Sage

end
-- ==== Proof.KernelValue.lean ====
/-
  The kernel program's output column, read entry by entry, is the two-layer mean-aggregating graph convolution
  with the products taken first.

  Between its three regions the program multiplies first and sums after. The first region leaves [X·Wl | X·Wr];
  the segment sum over the landing messages of the rows the sources name in the left half is laid beside the right
  half; the middle region scales the left half by d(j), adds the bias and the right half, rectifies, and leaves the
  two one-column products of the rectified rows; the segment sum of the first of them is laid beside the second;
  the last region scales, adds the bias and the second column. At entry (j, c) the rectifier's operand is

      ((Σ_{e lands on j} (X·Wl)(s e, c)) · d j + b(c)) + (X·Wr)(j, c),

  the specification's layer with the product taken first, the additions associated as written; the output at
  (p, 0) is the same expression one level up, over the rectified first layer. Every array between the regions is
  read at an index from the one before (a concatenation along the columns, a segment sum, a column slice, a cast
  that adds a unit axis, a transpose), so the two sides are the same sums of the same products.
-/
import proofs.«119981_j14920716386718_2_alg».proof.Proof.KernelFold
import proofs.«119981_j14920716386718_2_alg».proof.Proof.LibSageOrder
import Idealize.ShloMosaic.Lib.ValueLayout

noncomputable section

open scoped BigOperators

namespace Cert.Sage.Value

open Cert.Dense Cert.Indexed Cert.GraphConv Cert.KernelIdeal Cert.KernelIdeal.Gen Idealize.ShloMosaic
  Idealize.ShloMosaic.ValueIdx Cert.Sage.Pre Cert.Sage.Mid Cert.Sage.Post Cert.Sage.Fold

/-! ## The arrays between the regions, at an entry: variable sizes -/

/-- A scalar zero word broadcast to a shape is zero at every entry. -/
theorem zero_splat {t : Shape} (h : (⟨0, ![]⟩ : Shape).BroadcastsInDim t (![] : Fin 0 → Fin t.rank)) (i : t.Idx) :
    broadcastInDim t ![] h (constant (F := Ideal) ⟨0, ![]⟩ .f32 0x00000000#32) i = 0 := by
  rw [bcast_scalar_apply]
  exact Ideal.ofBits_zero_f32

/-- Rows of P taken by the column gi and added from a zero matrix into the rows the column si names: entry (j, k)
    is the sum over the messages landing on j of P(s e, k). -/
theorem segment_entry {N E K : ℕ} (hN : 0 < N)
    (wfS : ScatterDims.WF ⟨2, ![N, K]⟩ ⟨2, ![E, 1]⟩ ⟨2, ![E, K]⟩ [1] [0] [0] 1)
    (wfG : GatherDims.WF ⟨2, ![N, K]⟩ ⟨2, ![E, 1]⟩ ⟨2, ![E, K]⟩ [1] [0] [] [0] [] 1 ![1, K])
    (z : Mat N K) (hzero : ∀ i, z i = 0) (si gi : IVec ⟨2, ![E, 1]⟩ 32) (P : Mat N K) (j : Fin N) (k : Fin K) :
    Host.scatterAdd (F := Ideal) (φ := .f32) (rowScatter N K E wfS) z si (Host.gather (rowGather N K E wfG) P gi) (ix2 j k)
      = ∑ e ∈ landing si j, P (ix2 (source hN gi e) k) := by
  show Ideal.hostScatterAdd (rowScatter N K E wfS) z si (Host.gather (rowGather N K E wfG) P gi) (ix2 j k) = _
  rw [rowScatterAdd_apply, hzero, zero_add]
  refine Finset.sum_congr rfl fun e _ => ?_
  exact rowGather_at hN wfG P gi e k

/-- Two matrices laid side by side, at a column of the first. -/
theorem concat_left {N A B T : ℕ} (X : Mat N A) (Y : Mat N B)
    (h : Shape.Concatenates [(⟨2, ![N, A]⟩ : Shape), ⟨2, ![N, B]⟩] ⟨2, ![N, T]⟩ 1) (j : Fin N) (q : Fin T) (c : Fin A)
    (hq : q.val = c.val) :
    concatenate ⟨2, ![N, T]⟩ 1 [⟨⟨2, ![N, A]⟩, X⟩, ⟨⟨2, ![N, B]⟩, Y⟩] h (ix2 j q) = X (ix2 j c) :=
  concatenate_pair_apply_left (s₁ := ⟨2, ![N, A]⟩) (s₂ := ⟨2, ![N, B]⟩) (1 : Fin 2) X Y h (ix2 j q) rfl (ix2 j c)
    (fun b => by match b with | ⟨0, _⟩ => rfl | ⟨1, _⟩ => exact hq.symm)

/-- Two matrices laid side by side, at a column of the second. -/
theorem concat_right {N A B T : ℕ} (X : Mat N A) (Y : Mat N B)
    (h : Shape.Concatenates [(⟨2, ![N, A]⟩ : Shape), ⟨2, ![N, B]⟩] ⟨2, ![N, T]⟩ 1) (j : Fin N) (q : Fin T) (c : Fin B)
    (hq : q.val = A + c.val) :
    concatenate ⟨2, ![N, T]⟩ 1 [⟨⟨2, ![N, A]⟩, X⟩, ⟨⟨2, ![N, B]⟩, Y⟩] h (ix2 j q) = Y (ix2 j c) :=
  concatenate_pair_apply_right (s₁ := ⟨2, ![N, A]⟩) (s₂ := ⟨2, ![N, B]⟩) (1 : Fin 2) X Y h (ix2 j q) rfl rfl (ix2 j c)
    (fun b hb => by match b with | ⟨0, _⟩ => rfl | ⟨1, _⟩ => exact absurd rfl hb)
    (by show c.val + A = q.val; omega)

/-- A vector of n entries as an n×1 column. -/
theorem cast_col {n : ℕ} (x : Row n) (h : (⟨1, ![n]⟩ : Shape).ShapeCasts ⟨2, ![n, 1]⟩) (j : Fin n) (z : Fin 1) :
    shapeCast ⟨2, ![n, 1]⟩ x h (ix2 j z) = x (ix1 j) :=
  shapeCast_apply x h _ _ (by
    have hz0 : z.val = 0 := by omega
    rw [Shape.rowMajor_val_two, Shape.rowMajor_val_one]
    show j.val = j.val * 1 + z.val
    rw [hz0, Nat.mul_one, Nat.add_zero])

/-- The transposing operation is the specification's transpose. -/
theorem transpose_eq_tr {a b : ℕ} (W : Mat a b) (h : (⟨2, ![a, b]⟩ : Shape).Transposes [1, 0] ⟨2, ![b, a]⟩) :
    transpose ⟨2, ![b, a]⟩ [1, 0] W h = tr W := by
  funext i
  obtain ⟨j, k, rfl⟩ : ∃ (j : Fin b) (k : Fin a), i = ix2 j k := ⟨i 0, i 1, eq_ix2 i⟩
  exact transpose_ix2_apply W h j k

/-! ## The specification's layer and the regions' functions, at an entry -/

/-- The layer with the product taken first, at entry (p, c), written out. -/
theorem convK_entry {N E K C : ℕ} (L : Fin N → Finset (Fin E)) (s : Fin E → Fin N) (d : Fin N → EReal) (X : Mat N K)
    (Wl Wr : Mat K C) (b : Fin C → EReal) (p : Fin N) (c : Fin C) :
    convK L s d X Wl Wr b (ix2 p c) = ((∑ e ∈ L p, mm X Wl (ix2 (s e) c)) * d p + b c) + mm X Wr (ix2 p c) :=
  rfl

/-- The network with the products taken first: the second layer on the rectified first. -/
theorem sageK_entry {N E K C : ℕ} (hN : 0 < N) (si gi : IVec ⟨2, ![E, 1]⟩ 32) (dv : Row N) (X : Mat N K) (W1l W1r : Mat C K)
    (b1 : Row C) (W2l W2r : Mat 1 C) (b2 : Row 1) (i : (⟨2, ![N, 1]⟩ : Shape).Idx) :
    sageK hN si gi dv X W1l W1r b1 W2l W2r b2 i
      = convK (landing si) (source hN gi) (fun j => dv (ix1 j))
          (Cert.Dense.relu (convK (landing si) (source hN gi) (fun j => dv (ix1 j)) X (tr W1l) (tr W1r) (fun c => b1 (ix1 c))))
          (tr W2l) (tr W2r) (fun _ => b2 (ix1 (0 : Fin 1))) i :=
  rfl

/-- The middle region's operand of the rectifier, at entry (j, c). -/
theorem act_entry {M : ℕ} (MR : Mat M 32) (D : Mat M 1) (B : Mat 1 16) (j : Fin M) (c : Fin 16) :
    act MR D B (ix2 j c)
      = (MR (ix2 j (lo16 c)) * D (ix2 j (0 : Fin 1)) + B (ix2 (0 : Fin 1) c)) + MR (ix2 j (hi16 c)) :=
  rfl

/-- The last region's function, at entry (p, z). -/
theorem postFn_entry {M : ℕ} (MR : Mat M 2) (D : Mat M 1) (B : Mat 1 1) (p : Fin M) (z : Fin 1) :
    postFn MR D B (ix2 p z)
      = (MR (ix2 p (0 : Fin 2)) * D (ix2 p (0 : Fin 1)) + B (ix2 (0 : Fin 1) (0 : Fin 1))) + MR (ix2 p (1 : Fin 2)) :=
  rfl

/-! ## The arguments, and the first layer -/

variable (a0 : FVec Ideal S100000x32 .f32) (a1 : IVec S2x3200000 32) (a2 a3 : FVec Ideal S16x32 .f32)
  (a4 : FVec Ideal S16 .f32) (a5 a6 : FVec Ideal S1x16 .f32) (a7 : FVec Ideal S1 .f32)

/-- The 16-column segment sum at an entry. -/
theorem agg16_entry (P : FVec Ideal S100000x16 .f32) (j : Fin 100000) (c : Fin 16) :
    agg16 a1 P (ix2 j c)
      = ∑ e ∈ landing (scol a1) j, P (ix2 (source (N := 100000) (by decide) (gcol a1) e) c) := by
  unfold agg16
  exact segment_entry (N := 100000) (E := 3200000) (K := 16) (by decide)
    scatter_S100000x16_S3200000x1_S3200000x16_1_0_0_1_wf gather_S100000x16_S3200000x1_S3200000x16_1_0_n_n_0_1_116_wf
    _ (zero_splat bcast_S_S100000x16) (scol a1) (gcol a1) P j c

/-- The one-column segment sum at an entry. -/
theorem agg1_entry (P : FVec Ideal S100000x1 .f32) (j : Fin 100000) (z : Fin 1) :
    agg1 a1 P (ix2 j z)
      = ∑ e ∈ landing (scol a1) j, P (ix2 (source (N := 100000) (by decide) (gcol a1) e) z) := by
  unfold agg1
  exact segment_entry (N := 100000) (E := 3200000) (K := 1) (by decide)
    scatter_S100000x1_S3200000x1_S3200000x1_1_0_0_1_wf gather_S100000x1_S3200000x1_S3200000x1_1_0_n_n_0_1_11_wf
    _ (zero_splat bcast_S_S100000x1) (scol a1) (gcol a1) P j z

/-- The column of reciprocal counts at an entry. -/
theorem dcol_entry (j : Fin 100000) (z : Fin 1) : dcol a1 (ix2 j z) = dvec a1 (ix1 j) := by
  unfold dcol
  exact cast_col (dvec a1) shapeCasts_S100000_S100000x1 j z

/-- After the first region, a column of the left half: the product with the left weights. -/
theorem stage1_lo (j : Fin 100000) (c : Fin 16) : stage1 a0 a2 a3 (ix2 j (lo16 c)) = mm a0 (tr a2) (ix2 j c) := by
  unfold stage1
  rw [transpose_eq_tr a2, transpose_eq_tr a3]
  exact preFn_left a0 (tr a2) (tr a3) j c (lo16 c) rfl

/-- After the first region, a column of the right half: the product with the right weights. -/
theorem stage1_hi (j : Fin 100000) (c : Fin 16) : stage1 a0 a2 a3 (ix2 j (hi16 c)) = mm a0 (tr a3) (ix2 j c) := by
  unfold stage1
  rw [transpose_eq_tr a2, transpose_eq_tr a3]
  exact preFn_right a0 (tr a2) (tr a3) j c (hi16 c) rfl

/-- What the middle region reads, a column of the left half: the segment sum of the left products. -/
theorem mr1_lo (j : Fin 100000) (c : Fin 16) :
    mr1 a0 a1 a2 a3 (ix2 j (lo16 c))
      = ∑ e ∈ landing (scol a1) j, mm a0 (tr a2) (ix2 (source (N := 100000) (by decide) (gcol a1) e) c) := by
  unfold mr1
  refine (concat_left (N := 100000) (A := 16) (B := 16) (T := 32) _ _ _ j (lo16 c) c rfl).trans ?_
  refine (agg16_entry a1 _ j c).trans (Finset.sum_congr rfl fun e _ => ?_)
  refine (slice2_axis1_apply 0 (stage1 a0 a2 a3) _ _ c (lo16 c) (Nat.zero_add _).symm).trans ?_
  exact stage1_lo a0 a2 a3 _ c

/-- What the middle region reads, a column of the right half: the right products. -/
theorem mr1_hi (j : Fin 100000) (c : Fin 16) : mr1 a0 a1 a2 a3 (ix2 j (hi16 c)) = mm a0 (tr a3) (ix2 j c) := by
  unfold mr1
  refine (concat_right (N := 100000) (A := 16) (B := 16) (T := 32) _ _ _ j (hi16 c) c rfl).trans ?_
  refine (slice2_axis1_apply 16 (stage1 a0 a2 a3) _ j c (hi16 c) rfl).trans ?_
  exact stage1_hi a0 a2 a3 j c

/-- The rectifier's operand in the middle region is the specification's first layer, the product taken first. -/
theorem act_eq_convK :
    act (mr1 a0 a1 a2 a3) (dcol a1) (shapeCast S1x16 a4 shapeCasts_S16_S1x16)
      = convK (landing (scol a1)) (source (N := 100000) (by decide) (gcol a1)) (fun j => dvec a1 (ix1 j))
          a0 (tr a2) (tr a3) (fun c => a4 (ix1 c)) := by
  funext i
  obtain ⟨j, c, rfl⟩ : ∃ (j : Fin 100000) (c : Fin 16), i = ix2 j c := ⟨i 0, i 1, eq_ix2 i⟩
  rw [act_entry, convK_entry, mr1_lo, mr1_hi, dcol_entry, shapeCast_a_1a_apply]

/-- The first layer's rectified result, as the specification writes it. -/
def hidden : Mat 100000 16 :=
  Cert.Dense.relu (convK (landing (scol a1)) (source (N := 100000) (by decide) (gcol a1)) (fun j => dvec a1 (ix1 j))
    a0 (tr a2) (tr a3) (fun c => a4 (ix1 c)))

/-! ## The second layer -/

/-- After the middle region, the first column: the rectified first layer times the left weights. -/
theorem stage2_lo (j : Fin 100000) :
    stage2 a0 a1 a2 a3 a4 a5 a6 (ix2 j (0 : Fin 2)) = mm (hidden a0 a1 a2 a3 a4) (tr a5) (ix2 j (0 : Fin 1)) := by
  unfold stage2
  rw [transpose_eq_tr a5, transpose_eq_tr a6, midFn_left, act_eq_convK, hidden]

/-- After the middle region, the second column: the rectified first layer times the right weights. -/
theorem stage2_hi (j : Fin 100000) :
    stage2 a0 a1 a2 a3 a4 a5 a6 (ix2 j (1 : Fin 2)) = mm (hidden a0 a1 a2 a3 a4) (tr a6) (ix2 j (0 : Fin 1)) := by
  unfold stage2
  rw [transpose_eq_tr a5, transpose_eq_tr a6, midFn_right, act_eq_convK, hidden]

/-- What the last region reads, the first column: the segment sum of the left products. -/
theorem mr2_lo (p : Fin 100000) :
    mr2 a0 a1 a2 a3 a4 a5 a6 (ix2 p (0 : Fin 2))
      = ∑ e ∈ landing (scol a1) p,
          mm (hidden a0 a1 a2 a3 a4) (tr a5) (ix2 (source (N := 100000) (by decide) (gcol a1) e) (0 : Fin 1)) := by
  unfold mr2
  refine (concat_left (N := 100000) (A := 1) (B := 1) (T := 2) _ _ _ p (0 : Fin 2) (0 : Fin 1) rfl).trans ?_
  refine (agg1_entry a1 _ p (0 : Fin 1)).trans (Finset.sum_congr rfl fun e _ => ?_)
  refine (slice2_axis1_apply 0 (stage2 a0 a1 a2 a3 a4 a5 a6) _ _ (0 : Fin 1) (0 : Fin 2) rfl).trans ?_
  exact stage2_lo a0 a1 a2 a3 a4 a5 a6 _

/-- What the last region reads, the second column: the right products. -/
theorem mr2_hi (p : Fin 100000) :
    mr2 a0 a1 a2 a3 a4 a5 a6 (ix2 p (1 : Fin 2)) = mm (hidden a0 a1 a2 a3 a4) (tr a6) (ix2 p (0 : Fin 1)) := by
  unfold mr2
  refine (concat_right (N := 100000) (A := 1) (B := 1) (T := 2) _ _ _ p (1 : Fin 2) (0 : Fin 1) rfl).trans ?_
  refine (slice2_axis1_apply 1 (stage2 a0 a1 a2 a3 a4 a5 a6) _ p (0 : Fin 1) (1 : Fin 2) rfl).trans ?_
  exact stage2_hi a0 a1 a2 a3 a4 a5 a6 p

/-! ## The result -/

/-- The kernel program's output column, at entry (p, 0), is the specification's network with the products taken first. -/
theorem out_entry (p : Fin 100000) :
    outCol a0 a1 a2 a3 a4 a5 a6 a7 (ix2 p (0 : Fin 1))
      = Cert.Sage.sageK (N := 100000) (E := 3200000) (K := 32) (C := 16) (by decide) (scol a1) (gcol a1) (dvec a1)
          a0 a2 a3 a4 a5 a6 a7 (ix2 p (0 : Fin 1)) := by
  unfold outCol
  rw [sageK_entry, convK_entry, postFn_entry, mr2_lo, mr2_hi, dcol_entry, shapeCast_a_1a_apply, hidden]

end Cert.Sage.Value

end
-- ==== Proof.RefValue.lean ====
/-
  The reference program, read entry by entry, is the two-layer mean-aggregating graph convolution with the
  products taken last.

  A layer of the reference takes rows of its input by one column of indices, adds them from zero into the rows a
  second column names, scales row j of the total by d(j), multiplies by the transposed left weights, adds the
  bias of the entry's column, and adds the input times the transposed right weights: at entry (j, c)

      ((Σ_k ((Σ_{e lands on j} X(s e, k)) · d j) · Wl(c, k)) + b(c)) + Σ_k X(j, k) · Wr(c, k),

  the additions associated as written. The first layer's result goes through the maximum with zero and is the
  second layer's input; the second layer has one output column. Both layers read the same two index columns and
  the same vector d. Every stage is read at an index from the stage before, so the last array at (p, 0) is the
  specification's network at (p, 0), the two sides being the same sums.
-/
import proofs.«119981_j14920716386718_2_alg».proof.Proof.Gen.ReferenceIdeal.Read
import proofs.«119981_j14920716386718_2_alg».proof.Proof.LibSageOrder
import Idealize.ShloMosaic.Lib.ValueLayout

noncomputable section

open scoped BigOperators

namespace Cert.Sage.Ref

open Cert.ReferenceIdeal Cert.ReferenceIdeal.Gen Cert.ReferenceIdeal.Read Cert.Dense Cert.Indexed Cert.GraphConv
  Idealize.ShloMosaic Idealize.ShloMosaic.ValueIdx

/-! ## Rows taken, added from zero into named rows, and scaled -/

/-- Rows of H taken by the column gi, added from a zero matrix into the rows the column si names, and row j of the
    total scaled by dv(j): entry (j, k) is the sum over the messages landing on j of H(s e, k), times dv(j). -/
theorem scaled_segment {N E K : ℕ} (hN : 0 < N)
    (wfS : ScatterDims.WF ⟨2, ![N, K]⟩ ⟨2, ![E, 1]⟩ ⟨2, ![E, K]⟩ [1] [0] [0] 1)
    (wfG : GatherDims.WF ⟨2, ![N, K]⟩ ⟨2, ![E, 1]⟩ ⟨2, ![E, K]⟩ [1] [0] [] [0] [] 1 ![1, K])
    (hc : (⟨1, ![N]⟩ : Shape).BroadcastsInDim ⟨2, ![N, 1]⟩ ![0])
    (hk : (⟨2, ![N, 1]⟩ : Shape).BroadcastsInDim ⟨2, ![N, K]⟩ ![0, 1])
    (z : Mat N K) (hz : ∀ i, z i = 0) (si gi : IVec ⟨2, ![E, 1]⟩ 32) (dv : Row N) (H : Mat N K) (j : Fin N) (k : Fin K) :
    mulf (F := Ideal) (φ := .f32)
        (Host.scatterAdd (F := Ideal) (φ := .f32) (rowScatter N K E wfS) z si (Host.gather (rowGather N K E wfG) H gi))
        (broadcastInDim ⟨2, ![N, K]⟩ ![0, 1] hk (broadcastInDim ⟨2, ![N, 1]⟩ ![0] hc dv)) (ix2 j k)
      = (∑ e ∈ landing si j, H (ix2 (source hN gi e) k)) * dv (ix1 j) := by
  show Ideal.hostScatterAdd (rowScatter N K E wfS) z si (Host.gather (rowGather N K E wfG) H gi) (ix2 j k)
      * broadcastInDim ⟨2, ![N, K]⟩ ![0, 1] hk (broadcastInDim ⟨2, ![N, 1]⟩ ![0] hc dv) (ix2 j k) = _
  rw [rowScatterAdd_apply, hz, zero_add, bcast_cols_apply, bcast_col_apply]
  refine congrArg (· * dv (ix1 j)) (Finset.sum_congr rfl fun e _ => ?_)
  exact rowGather_at hN wfG H gi e k

/-! ## A layer of the specification and a transposed matrix, at an entry -/

/-- The layer with the product taken last, at entry (p, c), written out. -/
theorem convR_entry {N E K C : ℕ} (L : Fin N → Finset (Fin E)) (s : Fin E → Fin N) (d : Fin N → EReal) (X : Mat N K)
    (Wl Wr : Mat K C) (b : Fin C → EReal) (p : Fin N) (c : Fin C) :
    convR L s d X Wl Wr b (ix2 p c)
      = ((∑ k : Fin K, ((∑ e ∈ L p, X (ix2 (s e) k)) * d p) * Wl (ix2 k c)) + b c) + ∑ k : Fin K, X (ix2 p k) * Wr (ix2 k c) :=
  rfl

/-- A transposed matrix at (i, j) is the matrix at (j, i). -/
theorem tr_entry {a b : ℕ} (W : Mat a b) (i : Fin b) (j : Fin a) : tr W (ix2 i j) = W (ix2 j i) := rfl

/-- The rectifier at an entry. -/
theorem relu_entry {M N : ℕ} (X : Mat M N) (i : (⟨2, ![M, N]⟩ : Shape).Idx) : Cert.Dense.relu X i = max (X i) 0 := rfl

/-- The network with the products taken last, at an entry of its one column: the second layer on the rectified first. -/
theorem sageR_entry {N E K C : ℕ} (hN : 0 < N) (si gi : IVec ⟨2, ![E, 1]⟩ 32) (dv : Row N) (X : Mat N K) (W1l W1r : Mat C K)
    (b1 : Row C) (W2l W2r : Mat 1 C) (b2 : Row 1) (i : (⟨2, ![N, 1]⟩ : Shape).Idx) :
    sageR hN si gi dv X W1l W1r b1 W2l W2r b2 i
      = convR (landing si) (source hN gi) (fun j => dv (ix1 j))
          (Cert.Dense.relu (convR (landing si) (source hN gi) (fun j => dv (ix1 j)) X (tr W1l) (tr W1r) (fun c => b1 (ix1 c))))
          (tr W2l) (tr W2r) (fun _ => b2 (ix1 (0 : Fin 1))) i :=
  rfl

/-! ## The arguments, and the first layer -/

variable (x0 : (⟨S100000x32, .f32⟩ : BufTy).Contents (Elt Ideal)) (x1 : (⟨S2x3200000, .i32⟩ : BufTy).Contents (Elt Ideal))
  (x2 x3 : (⟨S16x32, .f32⟩ : BufTy).Contents (Elt Ideal)) (x4 : (⟨S16, .f32⟩ : BufTy).Contents (Elt Ideal))
  (x5 x6 : (⟨S1x16, .f32⟩ : BufTy).Contents (Elt Ideal)) (x7 : (⟨S1, .f32⟩ : BufTy).Contents (Elt Ideal))

/-- The second layer's two index columns are the first layer's: the same operations of the same argument. -/
theorem v42_eq : val_main_v42 (F := Ideal) x1 = val_main_v20 (F := Ideal) x1 := rfl
theorem v39_eq : val_main_v39 (F := Ideal) x1 = val_main_v17 (F := Ideal) x1 := rfl

/-- The matrix the first layer's sums start from is zero. -/
theorem v19_zero (i : S100000x32.Idx) : val_main_v19 (F := Ideal) i = 0 := by
  rw [val_main_v19_apply, val_main_cst_4_apply]
  exact Ideal.ofBits_zero_f32

/-- The first layer's scaled sums of taken rows. -/
theorem v24_entry (j : Fin 100000) (k : Fin 32) :
    val_main_v24 (F := Ideal) x0 x1 (ix2 j k)
      = (∑ e ∈ landing (val_main_v20 (F := Ideal) x1) j,
          x0 (ix2 (source (N := 100000) (by decide) (val_main_v17 (F := Ideal) x1) e) k))
        * val_main_v11 (F := Ideal) x1 (ix1 j) :=
  scaled_segment (N := 100000) (E := 3200000) (K := 32) (by decide)
    scatter_S100000x32_S3200000x1_S3200000x32_1_0_0_1_wf gather_S100000x32_S3200000x1_S3200000x32_1_0_n_n_0_1_132_wf
    bcast_S100000_S100000x1_0 bcast_S100000x1_S100000x32_0_1
    (val_main_v19 (F := Ideal)) v19_zero (val_main_v20 (F := Ideal) x1) (val_main_v17 (F := Ideal) x1)
    (val_main_v11 (F := Ideal) x1) x0 j k

/-! ### Indices of the first layer's products, bias and transposes, by coordinates -/

theorem lidx26 (p : Fin 100000) (c : Fin 16) (k : Fin 32) : lidx_main_v26 (ix2 p c) k = ix2 p k := by
  funext a; match a with | ⟨0, _⟩ => rfl | ⟨1, _⟩ => rfl
theorem ridx26 (p : Fin 100000) (c : Fin 16) (k : Fin 32) : idx_main_v25 (ridx_main_v26 (ix2 p c) k) = ix2 c k := by
  funext a; match a with | ⟨0, _⟩ => rfl | ⟨1, _⟩ => rfl
theorem lidx31 (p : Fin 100000) (c : Fin 16) (k : Fin 32) : lidx_main_v31 (ix2 p c) k = ix2 p k := by
  funext a; match a with | ⟨0, _⟩ => rfl | ⟨1, _⟩ => rfl
theorem ridx31 (p : Fin 100000) (c : Fin 16) (k : Fin 32) : idx_main_v30 (ridx_main_v31 (ix2 p c) k) = ix2 c k := by
  funext a; match a with | ⟨0, _⟩ => rfl | ⟨1, _⟩ => rfl
theorem idx28 (p : Fin 100000) (c : Fin 16) : idx_main_v27 (idx_main_v28 (ix2 p c)) = ix1 c := by
  funext a; match a with | ⟨0, _⟩ => rfl

/-- The first layer's left product: the scaled sums times the left weights, stored transposed. -/
theorem v26_entry (p : Fin 100000) (c : Fin 16) :
    val_main_v26 (F := Ideal) x0 x1 x2 (ix2 p c)
      = ∑ k : Fin 32, ((∑ e ∈ landing (val_main_v20 (F := Ideal) x1) p,
            x0 (ix2 (source (N := 100000) (by decide) (val_main_v17 (F := Ideal) x1) e) k))
          * val_main_v11 (F := Ideal) x1 (ix1 p)) * x2 (ix2 c k) := by
  rw [val_main_v26_apply]
  refine Finset.sum_congr rfl fun k _ => ?_
  rw [lidx26, v24_entry, val_main_v25_apply, ridx26]

/-- The first layer's bias, broadcast over the rows. -/
theorem v28_entry (p : Fin 100000) (c : Fin 16) : val_main_v28 (F := Ideal) x4 (ix2 p c) = x4 (ix1 c) := by
  rw [val_main_v28_apply, val_main_v27_apply, idx28]

/-- The first layer's right product: the features times the right weights, stored transposed. -/
theorem v31_entry (p : Fin 100000) (c : Fin 16) :
    val_main_v31 (F := Ideal) x0 x3 (ix2 p c) = ∑ k : Fin 32, x0 (ix2 p k) * x3 (ix2 c k) := by
  rw [val_main_v31_apply]
  refine Finset.sum_congr rfl fun k _ => ?_
  rw [lidx31, val_main_v30_apply, ridx31]

/-- The first layer before the rectifier is the specification's layer with the product taken last. -/
theorem v32_entry (p : Fin 100000) (c : Fin 16) :
    val_main_v32 (F := Ideal) x0 x1 x2 x3 x4 (ix2 p c)
      = convR (landing (val_main_v20 (F := Ideal) x1)) (source (N := 100000) (by decide) (val_main_v17 (F := Ideal) x1))
          (fun j => val_main_v11 (F := Ideal) x1 (ix1 j)) x0 (tr x2) (tr x3) (fun c => x4 (ix1 c)) (ix2 p c) := by
  rw [convR_entry, val_main_v32_apply, val_main_v29_apply, v26_entry, v28_entry, v31_entry]
  simp only [tr_entry]
  rfl

/-- The first layer's rectified result, as the specification writes it. -/
def hidden : Mat 100000 16 :=
  Cert.Dense.relu (convR (landing (val_main_v20 (F := Ideal) x1))
    (source (N := 100000) (by decide) (val_main_v17 (F := Ideal) x1))
    (fun j => val_main_v11 (F := Ideal) x1 (ix1 j)) x0 (tr x2) (tr x3) (fun c => x4 (ix1 c)))

/-- The rectifier's stage is that matrix. -/
theorem v33_eq : val_main_v33 (F := Ideal) x0 x1 x2 x3 x4 = hidden x0 x1 x2 x3 x4 := by
  funext i
  obtain ⟨p, c, rfl⟩ : ∃ (p : Fin 100000) (c : Fin 16), i = ix2 p c := ⟨i 0, i 1, eq_ix2 i⟩
  rw [hidden, relu_entry, ← v32_entry, val_main_v33_apply, val_main_call0_v0_apply, val_main_call0_cst_apply]
  exact congrArg (max _) Ideal.ofBits_zero_f32

/-! ## The second layer -/

/-- The matrix the second layer's sums start from is zero. -/
theorem v41_zero (i : S100000x16.Idx) : val_main_v41 (F := Ideal) i = 0 := by
  rw [val_main_v41_apply, val_main_cst_7_apply]
  exact Ideal.ofBits_zero_f32

/-- The second layer's scaled sums of taken rows of the first layer's result. -/
theorem v46_entry (j : Fin 100000) (k : Fin 16) :
    val_main_v46 (F := Ideal) x0 x1 x2 x3 x4 (ix2 j k)
      = (∑ e ∈ landing (val_main_v20 (F := Ideal) x1) j,
          hidden x0 x1 x2 x3 x4 (ix2 (source (N := 100000) (by decide) (val_main_v17 (F := Ideal) x1) e) k))
        * val_main_v11 (F := Ideal) x1 (ix1 j) := by
  rw [← v33_eq]
  exact scaled_segment (N := 100000) (E := 3200000) (K := 16) (by decide)
    scatter_S100000x16_S3200000x1_S3200000x16_1_0_0_1_wf gather_S100000x16_S3200000x1_S3200000x16_1_0_n_n_0_1_116_wf
    bcast_S100000_S100000x1_0 bcast_S100000x1_S100000x16_0_1
    (val_main_v41 (F := Ideal)) v41_zero (val_main_v20 (F := Ideal) x1) (val_main_v17 (F := Ideal) x1)
    (val_main_v11 (F := Ideal) x1) (val_main_v33 (F := Ideal) x0 x1 x2 x3 x4) j k

theorem lidx48 (p : Fin 100000) (z : Fin 1) (k : Fin 16) : lidx_main_v48 (ix2 p z) k = ix2 p k := by
  funext a; match a with | ⟨0, _⟩ => rfl | ⟨1, _⟩ => rfl
theorem ridx48 (p : Fin 100000) (z : Fin 1) (k : Fin 16) : idx_main_v47 (ridx_main_v48 (ix2 p z) k) = ix2 z k := by
  funext a; match a with | ⟨0, _⟩ => rfl | ⟨1, _⟩ => rfl
theorem lidx53 (p : Fin 100000) (z : Fin 1) (k : Fin 16) : lidx_main_v53 (ix2 p z) k = ix2 p k := by
  funext a; match a with | ⟨0, _⟩ => rfl | ⟨1, _⟩ => rfl
theorem ridx53 (p : Fin 100000) (z : Fin 1) (k : Fin 16) : idx_main_v52 (ridx_main_v53 (ix2 p z) k) = ix2 z k := by
  funext a; match a with | ⟨0, _⟩ => rfl | ⟨1, _⟩ => rfl
theorem idx50 (p : Fin 100000) (z : Fin 1) : idx_main_v49 (idx_main_v50 (ix2 p z)) = ix1 (0 : Fin 1) := by
  funext a; match a with | ⟨0, _⟩ => rfl

/-- The second layer's left product. -/
theorem v48_entry (p : Fin 100000) (z : Fin 1) :
    val_main_v48 (F := Ideal) x0 x1 x2 x3 x4 x5 (ix2 p z)
      = ∑ k : Fin 16, ((∑ e ∈ landing (val_main_v20 (F := Ideal) x1) p,
            hidden x0 x1 x2 x3 x4 (ix2 (source (N := 100000) (by decide) (val_main_v17 (F := Ideal) x1) e) k))
          * val_main_v11 (F := Ideal) x1 (ix1 p)) * x5 (ix2 z k) := by
  rw [val_main_v48_apply]
  refine Finset.sum_congr rfl fun k _ => ?_
  rw [lidx48, v46_entry, val_main_v47_apply, ridx48]

/-- The second layer's bias, broadcast over the rows. -/
theorem v50_entry (p : Fin 100000) (z : Fin 1) : val_main_v50 (F := Ideal) x7 (ix2 p z) = x7 (ix1 (0 : Fin 1)) := by
  rw [val_main_v50_apply, val_main_v49_apply, idx50]

/-- The second layer's right product. -/
theorem v53_entry (p : Fin 100000) (z : Fin 1) :
    val_main_v53 (F := Ideal) x0 x1 x2 x3 x4 x6 (ix2 p z)
      = ∑ k : Fin 16, hidden x0 x1 x2 x3 x4 (ix2 p k) * x6 (ix2 z k) := by
  rw [val_main_v53_apply, v33_eq]
  refine Finset.sum_congr rfl fun k _ => ?_
  rw [lidx53, val_main_v52_apply, ridx53]

/-! ## The result -/

/-- The reference's last matrix, at entry (p, 0), is the specification's network with the products taken last. -/
theorem ref_entry (p : Fin 100000) :
    val_main_v54 (F := Ideal) x0 x1 x2 x3 x4 x5 x6 x7 (ix2 p (0 : Fin 1))
      = Cert.Sage.sageR (N := 100000) (E := 3200000) (K := 32) (C := 16) (by decide)
          (val_main_v20 (F := Ideal) x1) (val_main_v17 (F := Ideal) x1) (val_main_v11 (F := Ideal) x1)
          x0 x2 x3 x4 x5 x6 x7 (ix2 p (0 : Fin 1)) := by
  rw [sageR_entry, convR_entry, val_main_v54_apply, val_main_v51_apply, v48_entry, v50_entry, v53_entry, hidden]
  simp only [tr_entry]
  rfl

/-- The reference's result is that matrix with its unit axis dropped. -/
theorem ref_result :
    val_main_v55 (F := Ideal) x0 x1 x2 x3 x4 x5 x6 x7
      = shapeCast S100000 (val_main_v54 (F := Ideal) x0 x1 x2 x3 x4 x5 x6 x7) shapeCasts_S100000x1_S100000 := by
  unfold val_main_v55
  rfl

end Cert.Sage.Ref

end
-- ==== Proof.LibFinite.lean ====
/-
  "Every entry is finite", decoded.

  A precondition states it of an array as the conjunction over the array of the test |x| < +∞, the bound being the
  f32 word of +∞. An extended real whose absolute value is below +∞ is neither infinity, so it is a real; and a
  conjunction over an array that holds is every one of its terms.
-/
import proofs.«119981_j14920716386718_2_alg».proof.Proof.LibMatAssoc
import Idealize.ShloMosaic.Lib.ReduceAll
import Idealize.ShloMosaic.Lib.Affine

noncomputable section

namespace Cert.Gcn

open Idealize.ShloMosaic Idealize.ShloMosaic.ValueIdx

/-- An extended real with |x| < +∞ (the test the precondition makes, against the f32 word of +∞) is a real. -/
theorem real_of_abs_lt_inf (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

instance : Subsingleton (⟨0, ![]⟩ : Shape).Idx := ⟨fun a b => funext fun d => d.elim0⟩

/-- One input's conjunct: the test holds at every index, so every entry is real. -/
theorem finite_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) : Finite x := by
  intro i
  have hi := Host.reduce_andi_all _ _ hr hu ix0 e i
  have hi' : Ideal.cmp .olt (max (x i) (-(x i)))
      (broadcastInDim s ![] hb (constant (F := Ideal) ⟨0, ![]⟩ .f32 0x7F800000#32) i) = 1#1 := hi
  rw [broadcastInDim_apply ![] hb _ i ix0 (fun ax => ax.elim0)] at hi'
  exact real_of_abs_lt_inf (x i) hi'

end Cert.Gcn

end
-- ==== Proof.Inputs.lean ====
/-
  The inputs of the network are real numbers.

  Two facts about the arrays the two-layer network is fed. First, the precondition on the inputs is the
  conjunction, over the seven float arrays, of "every entry has absolute value below +∞"; when it holds every
  entry of every float array is a real number. Second, the vector of reciprocal counts the reference computes
  from the index array alone, 1 / max(count, 1), has only real entries whatever the indices are: each count is a
  zero plus a sum of finitely many of the update entries, all of them the real one, and a finite sum of reals
  added to a real is a real; its maximum with one is a real not below one, so not zero; and one divided by a
  nonzero real is a real.
-/
import proofs.«119981_j14920716386718_2_alg».proof.Proof.Gen.ReferenceIdeal.Read
import proofs.«119981_j14920716386718_2_alg».proof.Proof.Gen.Pre_finite_inputs
import proofs.«119981_j14920716386718_2_alg».proof.Proof.LibSageOrder
import proofs.«119981_j14920716386718_2_alg».proof.Proof.LibFinite
import proofs.«119981_j14920716386718_2_alg».proof.Proof.LibIndexed
import proofs.«119981_j14920716386718_2_alg».proof.Proof.LibGraphConv

noncomputable section

namespace Cert.Sage.Inputs

open Cert.Gcn Cert.GraphConv Cert.ReferenceIdeal Cert.ReferenceIdeal.Read Idealize.ShloMosaic Idealize.ShloMosaic.ValueIdx

/-! ## The precondition decoded -/

/-- When the precondition's value is one, every entry of each of the seven float arrays is a real number: the value
    is the conjunction of seven tests, one per array, each the conjunction over the array of |x| < +∞. -/
theorem finite_of_pre [Cert.Pre_finite_inputs.Facts]
    (a0 : FVec Ideal Cert.Pre_finite_inputs.S100000x32 .f32) (a1 : IVec Cert.Pre_finite_inputs.S2x3200000 32)
    (a2 a3 : FVec Ideal Cert.Pre_finite_inputs.S16x32 .f32) (a4 : FVec Ideal Cert.Pre_finite_inputs.S16 .f32)
    (a5 a6 : FVec Ideal Cert.Pre_finite_inputs.S1x16 .f32) (a7 : FVec Ideal Cert.Pre_finite_inputs.S1 .f32)
    (h : Cert.Pre_finite_inputs.fn (F := Ideal) a0 a1 a2 a3 a4 a5 a6 a7 = fun _ => 1#1) :
    Finite a0 ∧ Finite a2 ∧ Finite a3 ∧ Finite a4 ∧ Finite a5 ∧ Finite a6 ∧ Finite a7 := by
  have e := congrFun h ix0
  dsimp only [Cert.Pre_finite_inputs.fn, Cert.Pre_finite_inputs.fn_part1, Idealize.ShloMosaic.andi] at e
  simp only [IntOp.andi_eq_one] at e
  obtain ⟨⟨⟨⟨⟨⟨e0, e2⟩, e3⟩, e4⟩, e5⟩, e6⟩, e7⟩ := e
  exact ⟨finite_of_all a0 _ _ _ e0, finite_of_all a2 _ _ _ e2, finite_of_all a3 _ _ _ e3, finite_of_all a4 _ _ _ e4,
    finite_of_all a5 _ _ _ e5, finite_of_all a6 _ _ _ e6, finite_of_all a7 _ _ _ e7⟩

/-! ## The reciprocal count -/

/-- The f32 word 0x3F800000 denotes the real number one. -/
theorem ofBits_one_f32 : Ideal.ofBits .f32 0x3F800000#32 = 1 := by
  simp [Ideal.ofBits, Ideal.ieee, -EReal.coe_mul]; norm_num

/-- One divided by the maximum of a real and one is a real: the divisor is a real not below one, so not zero. -/
theorem isReal_div_one_max {x : EReal} (hx : IsReal x) : IsReal (Ideal.div 1 (max x 1)) := by
  obtain ⟨r, rfl⟩ := hx
  have hm : max ((r : ℝ) : EReal) 1 = ((max r 1 : ℝ) : EReal) := by
    rw [← EReal.coe_one]
    exact (EReal.coe_strictMono.monotone.map_max (a := r) (b := 1)).symm
  have hne : max r 1 ≠ 0 := ne_of_gt (lt_of_lt_of_le one_pos (le_max_right _ _))
  rw [hm, Ideal.div_coe hne, ← EReal.coe_one, ← EReal.coe_mul]
  exact isReal_coe _

/-- Every entry of the vector of reciprocal counts is a real number, whatever the index array holds. -/
theorem dinv_finite (x1 : (⟨S2x3200000, .i32⟩ : BufTy).Contents (Elt Ideal)) :
    Finite (val_main_v11 (F := Ideal) x1) := by
  have h7 : Finite (val_main_v7 (F := Ideal) x1) := by
    unfold val_main_v7 val_main_v5 val_main_v4 val_main_cst val_main_cst_0
    exact finite_scatterAdd _ _ (finite_broadcastInDim _ (finite_constant_f32 _ (by decide)))
      (finite_broadcastInDim _ (finite_constant_f32 _ (by decide)))
  intro i
  have h8 : val_main_v8 (F := Ideal) i = 1 := by
    rw [val_main_v8_apply, val_main_cst_1_apply, Ideal.ofBits_def, ofBits_one_f32]
  have h10 : val_main_v10 (F := Ideal) i = 1 := by
    rw [val_main_v10_apply, val_main_cst_2_apply, Ideal.ofBits_def, ofBits_one_f32]
  rw [val_main_v11_apply, val_main_v9_apply, Ideal.hostDivf_def, Ideal.maximumf_def, h8, h10]
  exact isReal_div_one_max (h7 i)

end Cert.Sage.Inputs

end
-- ==== Proof.Bridge.lean ====
/-
  The two programs compute one function of real inputs.

  Both programs take from the edge array, by the same operations, the column of indices rows are added at, the
  column rows are taken by, and the vector of reciprocal clipped counts. Over these the kernel program's output
  column is the two-layer network with each layer's left product taken before the segment sum, and the
  reference's the same network with it taken after; the two orders agree when the features, the first layer's
  weights and bias, the second layer's left weights and the reciprocal counts are real numbers. The inputs are
  real by the precondition; a reciprocal clipped count is a real by itself.
-/
import proofs.«119981_j14920716386718_2_alg».proof.Proof.KernelValue
import proofs.«119981_j14920716386718_2_alg».proof.Proof.RefValue
import proofs.«119981_j14920716386718_2_alg».proof.Proof.Inputs
import proofs.«119981_j14920716386718_2_alg».proof.Proof.LibSageOrder

set_option maxRecDepth 16384

noncomputable section

namespace Cert.Sage.Bridge

open Cert.Dense Cert.Gcn Cert.GraphConv Idealize.ShloMosaic Idealize.ShloMosaic.ValueIdx
open Cert.ReferenceIdeal (S100000x32 S2x3200000 S16x32 S16 S1x16 S1 S100000x1 S100000)

variable (a0 : FVec Ideal S100000x32 .f32) (a1 : IVec S2x3200000 32) (a2 a3 : FVec Ideal S16x32 .f32) (a4 : FVec Ideal S16 .f32)
  (a5 a6 : FVec Ideal S1x16 .f32) (a7 : FVec Ideal S1 .f32)

/-- Both programs build the two index columns and the reciprocal counts by the same operations of the edge array. -/
theorem scol_eq : Cert.Sage.Fold.scol a1 = Cert.ReferenceIdeal.Read.val_main_v20 (F := Ideal) a1 := rfl
theorem gcol_eq : Cert.Sage.Fold.gcol a1 = Cert.ReferenceIdeal.Read.val_main_v17 (F := Ideal) a1 := rfl
theorem dvec_eq : Cert.Sage.Fold.dvec a1 = Cert.ReferenceIdeal.Read.val_main_v11 (F := Ideal) a1 := rfl

/-- For real features, weights and first bias the kernel program's output column is the reference's: both are
    the two-layer network of the same index columns and reciprocal counts, products first against products
    last, and the two orders agree on real entries. -/
theorem cols_eq (h : Finite a0 ∧ Finite a2 ∧ Finite a3 ∧ Finite a4 ∧ Finite a5 ∧ Finite a6 ∧ Finite a7) :
    Cert.Sage.Fold.outCol a0 a1 a2 a3 a4 a5 a6 a7 = Cert.ReferenceIdeal.Read.val_main_v54 (F := Ideal) a0 a1 a2 a3 a4 a5 a6 a7 := by
  obtain ⟨h0, h2, h3, h4, h5, -, -⟩ := h
  have hd : Finite (Cert.Sage.Fold.dvec a1) := by rw [dvec_eq]; exact Cert.Sage.Inputs.dinv_finite a1
  funext i
  obtain ⟨p, z, rfl⟩ : ∃ (p : Fin 100000) (z : Fin 1), i = ix2 p z := ⟨i 0, i 1, eq_ix2 i⟩
  obtain rfl : z = 0 := Subsingleton.elim _ _
  rw [Cert.Sage.Value.out_entry, Cert.Sage.Ref.ref_entry, ← scol_eq, ← gcol_eq, ← dvec_eq,
    Cert.Sage.sage_eq (by decide) (Cert.Sage.Fold.scol a1) (Cert.Sage.Fold.gcol a1) (Cert.Sage.Fold.dvec a1) a0 a2 a3 a4 a5 a6 a7 h0 h2 h3 h4 h5 hd]

/-- So the two result vectors are one. -/
theorem results_eq (h : Finite a0 ∧ Finite a2 ∧ Finite a3 ∧ Finite a4 ∧ Finite a5 ∧ Finite a6 ∧ Finite a7) :
    shapeCast Cert.KernelIdeal.S100000 (Cert.Sage.Fold.outCol a0 a1 a2 a3 a4 a5 a6 a7) Cert.KernelIdeal.Facts₀.shapeCasts_S100000x1_S100000
      = Cert.ReferenceIdeal.Read.val_main_v55 (F := Ideal) a0 a1 a2 a3 a4 a5 a6 a7 := by
  rw [Cert.Sage.Ref.ref_result, cols_eq a0 a1 a2 a3 a4 a5 a6 a7 h]

end Cert.Sage.Bridge

end
-- ==== Proof.lean ====
/-
  A two-layer mean-aggregating graph convolution on 100000 nodes and 3200000 edges: three pipelined regions
  among host operations, against the plain formulation.

  The reference aggregates first and multiplies after: per layer, the features of the source nodes are summed
  over the edges landing on a node, the sum is scaled by the reciprocal of the clipped count of those edges, and
  the result is multiplied by the layer's left weight matrix. The kernel program multiplies first: a region
  computes x·Wlᵀ and x·Wrᵀ side by side for every node, host operations take the segment sum of the rows of the
  first product, a second region scales it by the reciprocal count, adds the bias and the second product,
  rectifies, and at once multiplies by the next layer's two weight columns; the same again, and a last region
  finishes the second layer. On the extended reals the two orders differ only by a real factor distributed over
  finite sums of reals and an exchange of two finite sums (Proof/LibSageOrder.lean), which holds because the features and
  weights are finite by the precondition and a reciprocal clipped count is a real number by itself.

  The frames of the two kernel programs are the generated ones; the reference's is its generated run with the
  result dropped. For the value claim the kernel program's run is stated with its result buffer at the last
  segment boundary's contents (Proof/KernelRun.lean), those contents are read back through the seven boundaries
  as one term of the arguments (Proof/KernelFold.lean over the three region modules), that term read at an
  entry is the network with the products first (Proof/KernelValue.lean), the reference's generated run read at
  an entry is the network with the products last (Proof/RefValue.lean), and the two agree (Proof/Bridge.lean).
-/
import proofs.«119981_j14920716386718_2_alg».proof.Defs
import proofs.«119981_j14920716386718_2_alg».proof.Proof.Gen.Kernel
import proofs.«119981_j14920716386718_2_alg».proof.Proof.Gen.Kernel.Skeleton
import proofs.«119981_j14920716386718_2_alg».proof.Proof.Gen.Kernel.Launch
import proofs.«119981_j14920716386718_2_alg».proof.Proof.Gen.Kernel.Points
import proofs.«119981_j14920716386718_2_alg».proof.Proof.Gen.Kernel.Frame
import proofs.«119981_j14920716386718_2_alg».proof.Proof.Gen.KernelIdeal
import proofs.«119981_j14920716386718_2_alg».proof.Proof.Gen.KernelIdeal.Skeleton
import proofs.«119981_j14920716386718_2_alg».proof.Proof.Gen.KernelIdeal.Launch
import proofs.«119981_j14920716386718_2_alg».proof.Proof.Gen.KernelIdeal.Points
import proofs.«119981_j14920716386718_2_alg».proof.Proof.Gen.KernelIdeal.Frame
import proofs.«119981_j14920716386718_2_alg».proof.Proof.Gen.ReferenceIdeal
import proofs.«119981_j14920716386718_2_alg».proof.Proof.Gen.ReferenceIdeal.Run
import proofs.«119981_j14920716386718_2_alg».proof.Proof.Gen.ReferenceIdeal.Read
import proofs.«119981_j14920716386718_2_alg».proof.Proof.Gen.Pre_finite_inputs
import proofs.«119981_j14920716386718_2_alg».proof.Proof.KernelRun
import proofs.«119981_j14920716386718_2_alg».proof.Proof.KernelFold
import proofs.«119981_j14920716386718_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level program terminates, faults nowhere and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the program read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the same result vector: the kernel program's
    is its output column of the arguments, the reference's is its own last stage, and the two columns are one for
    real inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => shapeCast Cert.KernelIdeal.S100000 (Cert.Sage.Fold.outCol
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)))
      Cert.KernelIdeal.Facts₀.shapeCasts_S100000x1_S100000, ?_, ?_⟩
  · exact (θ_run Cert.KernelIdeal.defs _ _).mono (fun r h c => ⟨(h c).1.trans (Cert.Sage.Fold.result_eq m ρ c), (h c).2⟩)
      (Cert.Sage.Run.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v55_eq, e0, e1, e2, e3, e4, e5, e6, e7]
    exact (Cert.Sage.Bridge.results_eq _ _ _ _ _ _ _ _ (Cert.Sage.Inputs.finite_of_pre _ _ _ _ _ _ _ _ (hpre c))).symm

/-- Every claim of the certificate. The ideal pass rewrote no operation, so the idealization claim has no conjunct. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
